-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S256x128 .f32) (main_arg10 : FVec F S128 .f32) (main_arg11 : FVec F S128x1 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S2x500000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S256x128 .f32) (main_arg10 : FVec F S128 .f32) (main_arg11 : FVec F S128x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S10000x64 : Shape := ⟨2, ![10000, 64]⟩
abbrev S10000x1 : Shape := ⟨2, ![10000, 1]⟩
abbrev S10000x128 : Shape := ⟨2, ![10000, 128]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩
abbrev S10000 : Shape := ⟨1, ![10000]⟩

abbrev nBuf : Space → Nat
  | .hbm => 96
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1x500000, .i32⟩
  | .hbm, ⟨68, _⟩ => ⟨S500000, .i32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .f32⟩
  | .hbm, ⟨89, _⟩ => ⟨S128x128, .f32⟩
  | .hbm, ⟨90, _⟩ => ⟨S128x128, .f32⟩
  | .hbm, ⟨91, _⟩ => ⟨S1x128, .f32⟩
  | .hbm, ⟨92, _⟩ => ⟨S1x128, .f32⟩
  | .hbm, ⟨93, _⟩ => ⟨S1x1, .f32⟩
  | .hbm, ⟨94, _⟩ => ⟨S500000x1, .f32⟩
  | .hbm, ⟨95, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x1, .f32⟩
  | .local _ .vmem, ⟨31, _⟩ => ⟨S10000x1, .f32⟩
  | .local _ .vmem, ⟨32, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  transposes_S128x1_S1x128_1_0 : S128x1.Transposes [1, 0] S1x128
  shapeCasts_S1_S1x1 : S1.ShapeCasts S1x1
  shapeCasts_S128x128_S128x128 : S128x128.ShapeCasts S128x128
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S500000x1_S500000 : S500000x1.ShapeCasts S500000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S500000x1.size a
  hwx2_7 : ∀ i : grid2.Coords, EltTy.bits .f32 = 32 ∨ (Rect.block (s := S500000x1) S10000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x500000, .i32⟩
  | .hbm, ⟨84, _⟩ => ⟨S500000, .i32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x128, .f32⟩
  | .hbm, ⟨94, _⟩ => ⟨S1x500000, .i32⟩
  | .hbm, ⟨95, _⟩ => ⟨S500000, .i32⟩
  | .hbm, ⟨96, _⟩ => ⟨S_, .i32⟩
  | .hbm, ⟨97, _⟩ => ⟨S500000, .i32⟩
  | .hbm, ⟨98, _⟩ => ⟨S500000, .i1⟩
  | .hbm, ⟨99, _⟩ => ⟨S_, .i32⟩
  | .hbm, ⟨100, _⟩ => ⟨S500000, .i32⟩
  | .hbm, ⟨101, _⟩ => ⟨S500000, .i32⟩
  | .hbm, ⟨102, _⟩ => ⟨S500000, .i32⟩
  | .hbm, ⟨103, _⟩ => ⟨S500000x1, .i32⟩
  | .hbm, ⟨104, _⟩ => ⟨S500000x128, .f32⟩
  | .hbm, ⟨105, _⟩ => ⟨S500000x256, .f32⟩
  | .hbm, ⟨106, _⟩ => ⟨S500000x128, .f32⟩
  | .hbm, ⟨107, _⟩ => ⟨S1x128, .f32⟩
  | .hbm, ⟨108, _⟩ => ⟨S500000x128, .f32⟩
  | .hbm, ⟨109, _⟩ => ⟨S500000x128, .f32⟩
  | .hbm, ⟨110, _⟩ => ⟨S_, .f32⟩
  | .hbm, ⟨111, _⟩ => ⟨S500000x128, .f32⟩
  | .hbm, ⟨112, _⟩ => ⟨S500000x128, .f32⟩
  | .hbm, ⟨113, _⟩ => ⟨S500000x1, .f32⟩
  | .hbm, ⟨114, _⟩ => ⟨S1x1, .f32⟩
  | .hbm, ⟨115, _⟩ => ⟨S500000x1, .f32⟩
  | .hbm, ⟨116, _⟩ => ⟨S500000x1, .f32⟩
  | .hbm, ⟨117, _⟩ => ⟨S500000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call2_cst : Ref sig .tc := ⟨.hbm, 110, rfl⟩
abbrev main_call2_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Whole.lean ====
/-
  The whole run of the program, with its result named.

  The program is three pipelined regions among stretches of host operations, run as a chain of nine segments. A thread
  state rides through the chain: every buffer that is not a region's scratch, held whole at a valuation, beside the
  generator register and the statement that the core owes nothing. A host stretch moves the valuation through its
  operations; a region replaces its arrays by what its write-backs leave and keeps every other buffer. The last
  valuation, read against a final state, says what every such buffer holds when the program returns. From that one
  reading any postcondition about those buffers follows; here it is taken for the result buffer and the thirteen
  argument arrays.
-/
import proofs.«164962_j75256416960673_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state the chain starts from: the buffers at their launch contents, the register and the empty debt. -/
abbrev first (c : Dev nD) : sProp 𝕄 :=
  iprop(StableHlo.held (c : Thread nD τ) (Pipeline.ucRefs τ sig) (W0 m ρ c) ∗ R c)

/-- What a final memory satisfies on core `c`: every buffer outside the regions' scratch holds the last valuation. -/
abbrev Reads (c : Dev nD) (s : MemSt nD τ sig (Elt F)) : Prop :=
  ∀ b ∈ Pipeline.ucRefs τ sig, s.mem (((c : Thread nD τ)).1, b) = W9 m ρ c b

/-- The three regions are entered once each. -/
theorem pipes_nodup : (Pipeline.Seg.pipes (segs (F := F) m ρ)).Nodup := by
  simp only [segs, Pipeline.Seg.pipes_host, Pipeline.Seg.pipes_region, Pipeline.Seg.pipes_nil]
  decide

/-- The launch's ghost element is the pipelines' own, and no core needs anything beside it. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]
  · iexact Hu
  · iempintro

/-- Each core makes the first thread state from what the launch deals it. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (first m ρ) := by
  refine Pipeline.initEach L lv fun c => ?_
  rw [show unscopedBufs c (fun b => m ((c : Thread nD τ).loc b))
        = StableHlo.held (c : Thread nD τ) (Pipeline.ucRefs τ sig) (W0 m ρ c) from Pipeline.unscopedBufs_held c (W0 m ρ c)]
  iintro ⟨⟨Hbufs, Hsems, Howes, Hcred, Hprng, Hemp⟩, Hlev⟩
  imodintro
  isplitl [Hbufs]
  · iexact Hbufs
  isplitl [Hprng]
  · iexists _
    iexact Hprng
  · iexists ∅
    iexact Howes

/-- The segments' states chain: each segment leaves exactly what the next one takes, and the last leaves the final
    thread state beside the empty debt. -/
theorem chain : Pipeline.Seg.Chains (first m ρ) (segs m ρ)
    fun c => iprop(Tₙ m ρ c ∗ ∃ W, owes (c : Thread nD τ) (0 : CellTallies nD τ sig Unit) W) := by
  refine ⟨fun _ => .rfl, fun _ => .rfl, fun _ => .rfl, fun _ => .rfl, fun _ => .rfl, fun _ => .rfl, fun _ => .rfl,
    fun _ => .rfl, fun _ => .rfl, fun c => ?_⟩
  dsimp only [Pipeline.Seg.post, hseg, Pipeline.HostSeg.ofOps]
  iintro ⟨Hheld, Hprng, Howes⟩
  isplitl [Hheld Hprng]
  · isplitl [Hheld]
    · iexact Hheld
    · iexact Hprng
  · iexact Howes

/-- The last thread state read against a final state. -/
theorem final_read (c : Dev nD) (s' : Phys nD τ sig (Elt F)) :
    iprop(Tₙ m ρ c ∗ SI s') ⊢ |={Set.univ}=> iprop(⌜Reads m ρ c s'.mem⌝ ∗ SI s') := by
  iintro ⟨⟨Hheld, -⟩, HSI⟩
  unfold StableHlo.held
  imodintro
  iapply (pointsTo_read_all (Pipeline.ucRefs τ sig) (fun b => (((c : Thread nD τ)).1, b)) (W9 m ρ c) s')
  isplitl [Hheld] <;> iassumption

-- the launch theorem's implicit arguments are found by unifying its conclusion with this statement, which takes
-- unfolding plain definitions in a metavariable's type
set_option backward.isDefEq.respectTransparency.types false in
/-- Every weakly fair execution from a memory with zero counters terminates without a fault, in a memory satisfying any
    `Q` that follows from the last valuation's reading on every core. -/
theorem run_post {Q : PUnit × MemSt nD τ sig (Elt F) → Prop}
    (hQ : ∀ s : MemSt nD τ sig (Elt F), (∀ c : Dev nD, Reads m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q' => by rw [main_run m ρ c])
    (pipes_nodup m ρ)
    (O₀ := 0) (hL := fun _ _ => rfl) (G := fun _ => iprop(emp))
    (u₀ := initOf (Pipeline.cells cfgs cellOf_inj) (Pipeline.launchToks cfgs cellOf_inj))
    (hu₀ := launch_elem)
    (T₀ := first m ρ) (Tₙ := Tₙ m ρ)
    (hch := chain m ρ)
    (hinit := first_state m ρ)
    (QY := Reads m ρ)
    (hfin := final_read m ρ)
    (hQ := hQ)

/-- The run with the result named: the result buffer ends at the last valuation's contents of it, and the thirteen
    argument arrays are unchanged. -/
theorem run : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_post m ρ fun s h c =>
    ⟨h c _ (mem_uc main_v64 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c)⟩

end Cert.KernelIdeal.Whole

end
-- ==== Proof.KHost.lean ====
/-
  The host side of the program, buffer by buffer, at any float instance.

  From the edge list the host computes the source and destination columns, the in-degrees and their inverses; before
  each layer's region it gathers the source rows and sums them at the destinations; before the decoder's region it
  gathers the two endpoints' rows of the embeddings, cuts the decoder's first weight in its two halves and lays the
  biases and the second weight as rows. None of this depends on what a float is: the operations are slices, index
  wrap-arounds, gathers, scatter-adds and one comparison, quotient and select. So the contents of every buffer a region
  reads are stated here at any float instance, boundary by boundary, in terms of the launch arrays and of the previous
  region's output array.
-/
import proofs.«164962_j75256416960673_2_alg».proof.Proof.Gen.KernelIdeal.Frame
import Idealize.ShloMosaic.Lib.StableHlo.Run

set_option maxRecDepth 16384
set_option maxHeartbeats 2000000

noncomputable section

namespace Cert.KernelIdeal.Composite

open Cert.KernelIdeal Cert.KernelIdeal.Gen
open Idealize.ShloMosaic Idealize.ShloMosaic.TcCoe Idealize.ShloMosaic.StableHlo
open Idealize.SL Idealize.SL.Sem

/-! ## The graph-dependent pieces, as the host operations compute them

They are the same at any float instance: slices, index wrap-arounds, gathers and scatter-adds. -/

section Pieces

variable {F : FTy → Type} [FloatOps F]

variable (x1 : (⟨S2x1600000, .i32⟩ : BufTy).Contents (Elt F)) (x2 : (⟨S2x500000, .i32⟩ : BufTy).Contents (Elt F))

/-- The edges' source nodes: row 0 of the edge list. -/
def srcIdx : (⟨S1600000, .i32⟩ : BufTy).Contents (Elt F) :=
  shapeCast S1600000 (extractStridedSlice S1x1600000 ![0, 0] x1 slices_S2x1600000_S1x1600000_0_0) shapeCasts_S1x1600000_S1600000

/-- The edges' destination nodes: row 1 of the edge list. -/
def dstIdx : (⟨S1600000, .i32⟩ : BufTy).Contents (Elt F) :=
  shapeCast S1600000 (extractStridedSlice S1x1600000 ![1, 0] x1 slices_S2x1600000_S1x1600000_1_0) shapeCasts_S1x1600000_S1600000

/-- The source nodes as a column of gather indices, a negative index counted from the end. -/
def srcCol : (⟨S1600000x1, .i32⟩ : BufTy).Contents (Elt F) :=
  broadcastInDim S1600000x1 ![0] bcast_S1600000_S1600000x1_0
    (select (cmpi .slt (srcIdx x1) (broadcastInDim S1600000 ![] bcast_S_S1600000 (constantI S_ 32 0#32)))
      (addi (srcIdx x1) (broadcastInDim S1600000 ![] bcast_S_S1600000 (constantI S_ 32 100000#32))) (srcIdx x1))

/-- The destination nodes as a column of scatter indices. -/
def dstCol : (⟨S1600000x1, .i32⟩ : BufTy).Contents (Elt F) :=
  broadcastInDim S1600000x1 ![0] bcast_S1600000_S1600000x1_0 (dstIdx x1)

/-- The in-degrees: ones summed at the destinations. -/
def deg : (⟨S100000, .f32⟩ : BufTy).Contents (Elt F) :=
  Host.scatterAdd scatter_S100000_S1600000x1_S1600000_n_0_0_1
    (broadcastInDim S100000 ![] bcast_S_S100000 (constant (F := F) S_ .f32 0x00000000#32)) (dstCol x1)
    (broadcastInDim S1600000 ![] bcast_S_S1600000 (constant (F := F) S_ .f32 0x3F800000#32))

/-- The inverse in-degrees, zero where there is no in-edge. -/
def invDeg : (⟨S100000, .f32⟩ : BufTy).Contents (Elt F) :=
  select (cmpf (F := F) .ogt (deg x1) (broadcastInDim S100000 ![] bcast_S_S100000 (constant (F := F) S_ .f32 0x00000000#32)))
    (Host.divf (broadcastInDim S100000 ![] bcast_S_S100000 (constant (F := F) S_ .f32 0x3F800000#32))
      (maximumf (deg x1) (broadcastInDim S100000 ![] bcast_S_S100000 (constant (F := F) S_ .f32 0x3F800000#32))))
    (broadcastInDim S100000 ![] bcast_S_S100000 (constant (F := F) S_ .f32 0x00000000#32))

/-- The sums of the in-neighbours' rows of a 64-column array. -/
def agg64 (x : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32)) (dstCol x1)
    (Host.gather gather_S100000x64_S1600000x1_S1600000x64_1_0_n_n_0_1_164 x (srcCol x1))

/-- The sums of the in-neighbours' rows of a 128-column array. -/
def agg128 (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32)) (dstCol x1)
    (Host.gather gather_S100000x128_S1600000x1_S1600000x128_1_0_n_n_0_1_1128 h (srcCol x1))

/-- The label edges' first endpoints: row 0 of the label edge list. -/
def lblIdx0 : (⟨S500000, .i32⟩ : BufTy).Contents (Elt F) :=
  shapeCast S500000 (extractStridedSlice S1x500000 ![0, 0] x2 slices_S2x500000_S1x500000_0_0) shapeCasts_S1x500000_S500000

/-- The label edges' second endpoints: row 1 of the label edge list. -/
def lblIdx1 : (⟨S500000, .i32⟩ : BufTy).Contents (Elt F) :=
  shapeCast S500000 (extractStridedSlice S1x500000 ![1, 0] x2 slices_S2x500000_S1x500000_1_0) shapeCasts_S1x500000_S500000

/-- Endpoints as a column of gather indices, a negative index counted from the end. -/
def lblCol (v : (⟨S500000, .i32⟩ : BufTy).Contents (Elt F)) : (⟨S500000x1, .i32⟩ : BufTy).Contents (Elt F) :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The rows of the embeddings at a column of endpoints. -/
def pick (z : (⟨S100000x128, .f32⟩ : BufTy).Contents (Elt F)) (col : (⟨S500000x1, .i32⟩ : BufTy).Contents (Elt F)) : (⟨S500000x128, .f32⟩ : BufTy).Contents (Elt F) :=
  Host.gather gather_S100000x128_S500000x1_S500000x128_1_0_n_n_0_1_1128 z col

end Pieces

/-! ## The buffers' contents, boundary by boundary: the host side, at any float instance -/

section HostWalk

variable {F : FTy → Type} [FloatOps F]
variable (m : (ℓ : Loc nD τ sig) → Buf (Elt F) ℓ) (ρ : Dev nD → PrngReg) (c : Dev nD)

/-! ### After the first host stretch, and after the select that follows it -/
theorem w1_v9 : W1 m ρ c (Proc.devRef .tc main_v9)
    = cmpf (F := F) .ogt (deg (m ((c : Thread nD τ).loc main_arg1))) (broadcastInDim S100000 ![] bcast_S_S100000 (constant (F := F) S_ .f32 0x00000000#32)) := by
  show StableHlo.after hostOps0 (W0 m ρ c) (Proc.devRef .tc main_v9) = _
  after_results
  unfold deg dstCol dstIdx
  rfl
theorem w1_v13 : W1 m ρ c (Proc.devRef .tc main_v13)
    = Host.divf (broadcastInDim S100000 ![] bcast_S_S100000 (constant (F := F) S_ .f32 0x3F800000#32))
        (maximumf (deg (m ((c : Thread nD τ).loc main_arg1))) (broadcastInDim S100000 ![] bcast_S_S100000 (constant (F := F) S_ .f32 0x3F800000#32))) := by
  show StableHlo.after hostOps0 (W0 m ρ c) (Proc.devRef .tc main_v13) = _
  after_results
  unfold deg dstCol dstIdx
  rfl
theorem w1_cst4 : W1 m ρ c (Proc.devRef .tc main_cst_4) = constant (F := F) S_ .f32 0x00000000#32 := by
  show StableHlo.after hostOps0 (W0 m ρ c) (Proc.devRef .tc main_cst_4) = _
  after_results
set_option maxHeartbeats 400000 in
theorem w2_v14 : W2 m ρ c (Proc.devRef .tc main_v14) = invDeg (m ((c : Thread nD τ).loc main_arg1)) := by
  have h9 := w1_v9 m ρ c
  have h13 := w1_v13 m ρ c
  have h4 := w1_cst4 m ρ c
  show StableHlo.after hostOps0_1 (W1 m ρ c) (Proc.devRef .tc main_v14) = _
  generalize W1 m ρ c = Y at h9 h13 h4 ⊢
  after_results
  rw [h9, h13, h4]
  unfold invDeg
  rfl

/-! ### At the first region's entry -/

theorem w3_v15 : W3 m ρ c (Proc.devRef .tc main_v15) = shapeCast S100000x1 (invDeg (m ((c : Thread nD τ).loc main_arg1))) shapeCasts_S100000_S100000x1 := by
  have h14 := w2_v14 m ρ c
  show StableHlo.after hostOps0_2 (W2 m ρ c) (Proc.devRef .tc main_v15) = _
  generalize W2 m ρ c = Y at h14 ⊢
  after_results
  rw [h14]
  rfl

theorem w3_v25 : W3 m ρ c (Proc.devRef .tc main_v25) = agg64 (m ((c : Thread nD τ).loc main_arg1)) (m ((c : Thread nD τ).loc main_arg0)) := by
  show StableHlo.after hostOps0_2 (StableHlo.after hostOps0_1 (StableHlo.after hostOps0 (W0 m ρ c))) (Proc.devRef .tc main_v25) = _
  after_results
  unfold agg64 dstCol srcCol srcIdx dstIdx
  rfl
theorem w3_v26 : W3 m ρ c (Proc.devRef .tc main_v26) = shapeCast S1x128 (m ((c : Thread nD τ).loc main_arg4)) shapeCasts_S128_S1x128 := by
  show StableHlo.after hostOps0_2 (StableHlo.after hostOps0_1 (StableHlo.after hostOps0 (W0 m ρ c))) (Proc.devRef .tc main_v26) = _
  after_results
  rfl
theorem w3_v1 : W3 m ρ c (Proc.devRef .tc main_v1) = srcIdx (m ((c : Thread nD τ).loc main_arg1)) := by
  show StableHlo.after hostOps0_2 (StableHlo.after hostOps0_1 (StableHlo.after hostOps0 (W0 m ρ c))) (Proc.devRef .tc main_v1) = _
  after_results
  unfold srcIdx
  rfl
theorem w3_v3 : W3 m ρ c (Proc.devRef .tc main_v3) = dstIdx (m ((c : Thread nD τ).loc main_arg1)) := by
  show StableHlo.after hostOps0_2 (StableHlo.after hostOps0_1 (StableHlo.after hostOps0 (W0 m ρ c))) (Proc.devRef .tc main_v3) = _
  after_results
  unfold dstIdx
  rfl
theorem w3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
theorem w3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
theorem w3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
theorem w3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
theorem w3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
theorem w3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results
theorem w3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results
theorem w3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results
theorem w3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results
theorem w3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results
theorem w3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results

/-! ### Across the first region: what it does not write -/

theorem w4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem w4_v1 : W4 m ρ c (Proc.devRef .tc main_v1) = W3 m ρ c (Proc.devRef .tc main_v1) := W4_of_ne m ρ c main_v1 (by decide)
theorem w4_v3 : W4 m ρ c (Proc.devRef .tc main_v3) = W3 m ρ c (Proc.devRef .tc main_v3) := W4_of_ne m ρ c main_v3 (by decide)
theorem w4_arg2 : W4 m ρ c (Proc.devRef .tc main_arg2) = W3 m ρ c (Proc.devRef .tc main_arg2) := W4_of_ne m ρ c main_arg2 (by decide)
theorem w4_arg6 : W4 m ρ c (Proc.devRef .tc main_arg6) = W3 m ρ c (Proc.devRef .tc main_arg6) := W4_of_ne m ρ c main_arg6 (by decide)
theorem w4_arg7 : W4 m ρ c (Proc.devRef .tc main_arg7) = W3 m ρ c (Proc.devRef .tc main_arg7) := W4_of_ne m ρ c main_arg7 (by decide)
theorem w4_arg8 : W4 m ρ c (Proc.devRef .tc main_arg8) = W3 m ρ c (Proc.devRef .tc main_arg8) := W4_of_ne m ρ c main_arg8 (by decide)
theorem w4_arg9 : W4 m ρ c (Proc.devRef .tc main_arg9) = W3 m ρ c (Proc.devRef .tc main_arg9) := W4_of_ne m ρ c main_arg9 (by decide)
theorem w4_arg10 : W4 m ρ c (Proc.devRef .tc main_arg10) = W3 m ρ c (Proc.devRef .tc main_arg10) := W4_of_ne m ρ c main_arg10 (by decide)
theorem w4_arg11 : W4 m ρ c (Proc.devRef .tc main_arg11) = W3 m ρ c (Proc.devRef .tc main_arg11) := W4_of_ne m ρ c main_arg11 (by decide)
theorem w4_arg12 : W4 m ρ c (Proc.devRef .tc main_arg12) = W3 m ρ c (Proc.devRef .tc main_arg12) := W4_of_ne m ρ c main_arg12 (by decide)

/-! ### At the second region's entry -/

theorem w5_v37 : W5 m ρ c (Proc.devRef .tc main_v37) = agg128 (m ((c : Thread nD τ).loc main_arg1)) (W4 m ρ c (Proc.devRef .tc main_v27)) := by
  show StableHlo.after hostOps1 (W4 m ρ c) (Proc.devRef .tc main_v37) = _
  after_results
  rw [w4_v1, w4_v3, w3_v1, w3_v3]
  unfold agg128 dstCol srcCol
  rfl
theorem w5_v27 : W5 m ρ c (Proc.devRef .tc main_v27) = W4 m ρ c (Proc.devRef .tc main_v27) := by
  show StableHlo.after hostOps1 (W4 m ρ c) (Proc.devRef .tc main_v27) = _
  after_results
theorem w5_v15 : W5 m ρ c (Proc.devRef .tc main_v15) = shapeCast S100000x1 (invDeg (m ((c : Thread nD τ).loc main_arg1))) shapeCasts_S100000_S100000x1 := by
  show StableHlo.after hostOps1 (W4 m ρ c) (Proc.devRef .tc main_v15) = _
  after_results
  rw [w4_v15, w3_v15]
theorem w5_v38 : W5 m ρ c (Proc.devRef .tc main_v38) = shapeCast S1x128 (m ((c : Thread nD τ).loc main_arg7)) shapeCasts_S128_S1x128 := by
  show StableHlo.after hostOps1 (W4 m ρ c) (Proc.devRef .tc main_v38) = _
  after_results
  rw [w4_arg7, w3_arg7]
  rfl
theorem w5_arg2 : W5 m ρ c (Proc.devRef .tc main_arg2) = (m ((c : Thread nD τ).loc main_arg2)) := by
  show StableHlo.after hostOps1 (W4 m ρ c) (Proc.devRef .tc main_arg2) = _
  after_results
  rw [w4_arg2, w3_arg2]
theorem w5_arg9 : W5 m ρ c (Proc.devRef .tc main_arg9) = (m ((c : Thread nD τ).loc main_arg9)) := by
  show StableHlo.after hostOps1 (W4 m ρ c) (Proc.devRef .tc main_arg9) = _
  after_results
  rw [w4_arg9, w3_arg9]
theorem w5_arg10 : W5 m ρ c (Proc.devRef .tc main_arg10) = (m ((c : Thread nD τ).loc main_arg10)) := by
  show StableHlo.after hostOps1 (W4 m ρ c) (Proc.devRef .tc main_arg10) = _
  after_results
  rw [w4_arg10, w3_arg10]
theorem w5_arg11 : W5 m ρ c (Proc.devRef .tc main_arg11) = (m ((c : Thread nD τ).loc main_arg11)) := by
  show StableHlo.after hostOps1 (W4 m ρ c) (Proc.devRef .tc main_arg11) = _
  after_results
  rw [w4_arg11, w3_arg11]
theorem w5_arg12 : W5 m ρ c (Proc.devRef .tc main_arg12) = (m ((c : Thread nD τ).loc main_arg12)) := by
  show StableHlo.after hostOps1 (W4 m ρ c) (Proc.devRef .tc main_arg12) = _
  after_results
  rw [w4_arg12, w3_arg12]
theorem w5_arg6 : W5 m ρ c (Proc.devRef .tc main_arg6) = (m ((c : Thread nD τ).loc main_arg6)) := by
  show StableHlo.after hostOps1 (W4 m ρ c) (Proc.devRef .tc main_arg6) = _
  after_results
  rw [w4_arg6, w3_arg6]
theorem w5_arg8 : W5 m ρ c (Proc.devRef .tc main_arg8) = (m ((c : Thread nD τ).loc main_arg8)) := by
  show StableHlo.after hostOps1 (W4 m ρ c) (Proc.devRef .tc main_arg8) = _
  after_results
  rw [w4_arg8, w3_arg8]

/-! ### Across the second region: what it does not write -/

theorem w6_arg2 : W6 m ρ c (Proc.devRef .tc main_arg2) = (m ((c : Thread nD τ).loc main_arg2)) :=
  (W6_of_ne m ρ c main_arg2 (by decide)).trans (w5_arg2 m ρ c)
theorem w6_arg9 : W6 m ρ c (Proc.devRef .tc main_arg9) = (m ((c : Thread nD τ).loc main_arg9)) :=
  (W6_of_ne m ρ c main_arg9 (by decide)).trans (w5_arg9 m ρ c)
theorem w6_arg10 : W6 m ρ c (Proc.devRef .tc main_arg10) = (m ((c : Thread nD τ).loc main_arg10)) :=
  (W6_of_ne m ρ c main_arg10 (by decide)).trans (w5_arg10 m ρ c)
theorem w6_arg11 : W6 m ρ c (Proc.devRef .tc main_arg11) = (m ((c : Thread nD τ).loc main_arg11)) :=
  (W6_of_ne m ρ c main_arg11 (by decide)).trans (w5_arg11 m ρ c)
theorem w6_arg12 : W6 m ρ c (Proc.devRef .tc main_arg12) = (m ((c : Thread nD τ).loc main_arg12)) :=
  (W6_of_ne m ρ c main_arg12 (by decide)).trans (w5_arg12 m ρ c)

/-! ### At the decoder region's entry -/

theorem w7_v50 : W7 m ρ c (Proc.devRef .tc main_v50) = pick (W6 m ρ c (Proc.devRef .tc main_v39)) (lblCol (lblIdx0 (m ((c : Thread nD τ).loc main_arg2)))) := by
  show StableHlo.after hostOps2 (W6 m ρ c) (Proc.devRef .tc main_v50) = _
  after_results
  rw [w6_arg2]
  unfold pick lblCol lblIdx0
  rfl
theorem w7_v57 : W7 m ρ c (Proc.devRef .tc main_v57) = pick (W6 m ρ c (Proc.devRef .tc main_v39)) (lblCol (lblIdx1 (m ((c : Thread nD τ).loc main_arg2)))) := by
  show StableHlo.after hostOps2 (W6 m ρ c) (Proc.devRef .tc main_v57) = _
  after_results
  rw [w6_arg2]
  unfold pick lblCol lblIdx1
  rfl
theorem w7_v58 : W7 m ρ c (Proc.devRef .tc main_v58) = extractStridedSlice S128x128 ![0, 0] (m ((c : Thread nD τ).loc main_arg9)) slices_S256x128_S128x128_0_0 := by
  show StableHlo.after hostOps2 (W6 m ρ c) (Proc.devRef .tc main_v58) = _
  after_results
  rw [w6_arg9]
theorem w7_v59 : W7 m ρ c (Proc.devRef .tc main_v59) = extractStridedSlice S128x128 ![128, 0] (m ((c : Thread nD τ).loc main_arg9)) slices_S256x128_S128x128_128_0 := by
  show StableHlo.after hostOps2 (W6 m ρ c) (Proc.devRef .tc main_v59) = _
  after_results
  rw [w6_arg9]
theorem w7_v61 : W7 m ρ c (Proc.devRef .tc main_v61) = shapeCast S1x128 (m ((c : Thread nD τ).loc main_arg10)) shapeCasts_S128_S1x128 := by
  show StableHlo.after hostOps2 (W6 m ρ c) (Proc.devRef .tc main_v61) = _
  after_results
  rw [w6_arg10]
  rfl
theorem w7_v60 : W7 m ρ c (Proc.devRef .tc main_v60) = transpose S1x128 [1, 0] (m ((c : Thread nD τ).loc main_arg11)) transposes_S128x1_S1x128_1_0 := by
  show StableHlo.after hostOps2 (W6 m ρ c) (Proc.devRef .tc main_v60) = _
  after_results
  rw [w6_arg11]
theorem w7_v62 : W7 m ρ c (Proc.devRef .tc main_v62) = shapeCast S1x1 (m ((c : Thread nD τ).loc main_arg12)) shapeCasts_S1_S1x1 := by
  show StableHlo.after hostOps2 (W6 m ρ c) (Proc.devRef .tc main_v62) = _
  after_results
  rw [w6_arg12]
  rfl

/-! ### The result buffer is the final reshape of the decoder region's output -/

theorem w9_v64 : W9 m ρ c (Proc.devRef .tc main_v64)
    = shapeCast S500000 (W8 m ρ c (Proc.devRef .tc main_v63)) shapeCasts_S500000x1_S500000 := by
  show StableHlo.after hostOps3 (W8 m ρ c) (Proc.devRef .tc main_v64) = _
  after_results
  rfl

end HostWalk

end Cert.KernelIdeal.Composite

end
-- ==== Proof.Dense.lean ====
/-
  The dense arithmetic of a two-layer neighbourhood-averaging graph network with an edge decoder, on the extended
  reals, index by index.

  One layer takes, per node p, the sum `agg p` of its in-neighbours' feature rows, scales it by the node's inverse
  in-degree `inv p`, and returns  (agg p · inv p) · W_l + b + x p · W_r : at output coordinate c

      Σ_q (agg(p,q) · inv p) · W_l(q,c)  +  b c  +  Σ_q x(p,q) · W_r(q,c).

  The first layer is followed by a clamp at zero. The decoder takes the two endpoint embeddings z0 e, z1 e of an edge
  e, applies a 256 → 128 linear map to their concatenation — written here already split: rows 0…127 of the weight
  meet z0 and rows 128…255 meet z1 —, a bias, a clamp at zero, and a 128 → 1 linear map with its bias.
-/
import Idealize.ShloMosaic.PureOps.Ideal
import Idealize.ShloMosaic.Lib.ValueIdx

noncomputable section

namespace Cert.Dense

open Idealize.ShloMosaic Idealize.ShloMosaic.ValueIdx

/-- The float zero the clamps compare with, kept as its bit pattern. -/
abbrev zero : EReal := Ideal.ofBits .f32 0x00000000#32

variable {n k h : ℕ}

/-- One layer at node `p`, output coordinate `c`. -/
def convAt (agg x : (⟨2, ![n, k]⟩ : Shape).Idx → EReal) (inv : (⟨1, ![n]⟩ : Shape).Idx → EReal)
    (wl wr : (⟨2, ![k, h]⟩ : Shape).Idx → EReal) (b : (⟨1, ![h]⟩ : Shape).Idx → EReal) (p : Fin n) (c : Fin h) : EReal :=
  (∑ q : Fin k, agg (ix2 p q) * inv (ix1 p) * wl (ix2 q c)) + b (ix1 c) + ∑ q : Fin k, x (ix2 p q) * wr (ix2 q c)

/-- One layer as an array. -/
def conv (agg x : (⟨2, ![n, k]⟩ : Shape).Idx → EReal) (inv : (⟨1, ![n]⟩ : Shape).Idx → EReal)
    (wl wr : (⟨2, ![k, h]⟩ : Shape).Idx → EReal) (b : (⟨1, ![h]⟩ : Shape).Idx → EReal) :
    (⟨2, ![n, h]⟩ : Shape).Idx → EReal :=
  fun j => convAt agg x inv wl wr b (j 0) (j 1)

/-- One layer followed by the clamp at zero, as an array. -/
def convClamp (agg x : (⟨2, ![n, k]⟩ : Shape).Idx → EReal) (inv : (⟨1, ![n]⟩ : Shape).Idx → EReal)
    (wl wr : (⟨2, ![k, h]⟩ : Shape).Idx → EReal) (b : (⟨1, ![h]⟩ : Shape).Idx → EReal) :
    (⟨2, ![n, h]⟩ : Shape).Idx → EReal :=
  fun j => max (convAt agg x inv wl wr b (j 0) (j 1)) zero

variable {e : ℕ}

/-- The decoder's hidden unit `c` of edge `p`, before the clamp: the first 128 rows of the weight meet the first
    endpoint, the last 128 the second. -/
def hiddenAt (z0 z1 : (⟨2, ![e, 128]⟩ : Shape).Idx → EReal) (w1 : (⟨2, ![256, 128]⟩ : Shape).Idx → EReal)
    (b1 : (⟨1, ![128]⟩ : Shape).Idx → EReal) (p : Fin e) (c : Fin 128) : EReal :=
  (∑ q : Fin 128, z0 (ix2 p q) * w1 (ix2 (Fin.castAdd 128 q : Fin (128 + 128)) c))
    + (∑ q : Fin 128, z1 (ix2 p q) * w1 (ix2 (Fin.natAdd 128 q : Fin (128 + 128)) c)) + b1 (ix1 c)

/-- The decoder's score of edge `p`. -/
def scoreAt (z0 z1 : (⟨2, ![e, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (p : Fin e) : EReal :=
  (∑ c : Fin 128, max (hiddenAt z0 z1 w1 b1 p c) zero * w2 (ix2 c (0 : Fin 1))) + b2 (ix1 (0 : Fin 1))

/-- The decoder's scores as a one-column array. -/
def score (z0 z1 : (⟨2, ![e, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![e, 1]⟩ : Shape).Idx → EReal :=
  fun j => scoreAt z0 z1 w1 b1 w2 b2 (j 0)

end Cert.Dense

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibConvBody.lean ====
/-
  The vector body of one neighbourhood-averaging layer, read at an index, for any extents.

  The body scales the aggregated rows by a per-row column (an [a, 1] array broadcast along the lanes), multiplies by
  a [k, h] weight on the matrix unit from the zero splat, adds a bias row (a [1, h] array broadcast down the rows) and
  adds the product of the node's own rows with a second [k, h] weight. At row p, column c this is

      Σ_q (agg(p,q) · col(p,0)) · W_l(q,c)  +  row(0,c)  +  Σ_q x(p,q) · W_r(q,c).
-/
import proofs.«164962_j75256416960673_2_alg».proof.Proof.LibPlainDot
import proofs.«164962_j75256416960673_2_alg».proof.Proof.LibKeepdims
import Idealize.ShloMosaic.Lib.ValueLayout

noncomputable section

namespace Cert.LibConvBody

open Idealize.ShloMosaic Idealize.ShloMosaic.ValueIdx

/-- The layer body at row `p`, column `c`. -/
theorem body_apply {a k h : ℕ} (prec₁ prec₂ : Option ContractPrecision)
    (agg x : FVec Ideal ⟨2, ![a, k]⟩ .f32) (col : FVec Ideal ⟨2, ![a, 1]⟩ .f32)
    (wl wr : FVec Ideal ⟨2, ![k, h]⟩ .f32) (row : FVec Ideal ⟨2, ![1, h]⟩ .f32)
    (hc : (⟨2, ![a, 1]⟩ : Shape).Broadcasts ⟨2, ![a, k]⟩) (hr : (⟨2, ![1, h]⟩ : Shape).Broadcasts ⟨2, ![a, h]⟩)
    (p : Fin a) (c : Fin h) :
    addf (addf (FloatOps.matmul (DotDims.plain a k h) prec₁ (mulf agg (broadcastTo ⟨2, ![a, k]⟩ col hc)) wl
                  (constant ⟨2, ![a, h]⟩ .f32 0x00000000#32))
               (broadcastTo ⟨2, ![a, h]⟩ row hr))
         (FloatOps.matmul (DotDims.plain a k h) prec₂ x wr (constant ⟨2, ![a, h]⟩ .f32 0x00000000#32)) (ix2 p c)
      = (∑ q : Fin k, agg (ix2 p q) * col (ix2 p (0 : Fin 1)) * wl (ix2 q c)) + row (ix2 (0 : Fin 1) c)
          + ∑ q : Fin k, x (ix2 p q) * wr (ix2 q c) := by
  rw [addf_apply, addf_apply, LibPlainDot.matmul_zero_apply, LibPlainDot.matmul_zero_apply,
    broadcastTo_1b_ab_apply row hr p c]
  refine congrArg₂ (· + ·) (congrArg₂ (· + ·) ?_ rfl) rfl
  refine Finset.sum_congr rfl fun q _ => ?_
  show mulf agg (broadcastTo ⟨2, ![a, k]⟩ col hc) (ix2 p q) * wl (ix2 q c) = _
  rw [mulf_apply, Cert.Keepdims.broadcastTo_a1_ab_apply col hc p q]

end Cert.LibConvBody

end
-- ==== Proof.K0.lean ====
/-
  The first layer's region: what its output array holds after the run, as one function of the arrays it reads.

  The region walks ten blocks of 10000 nodes. At block t it reads rows t·10000 … t·10000 + 9999 of the aggregated
  features, of the node features and of the inverse-degree column, and the two weights and the bias row whole; it writes
  rows t·10000 … of the output. Row p of block t is node t·10000 + p, so the block the region writes back at t is block t
  of ONE array: the layer (clamped at zero) of the whole input arrays. The ten blocks tile the 100000 rows, so the
  output array ends holding that array.
-/
import proofs.«164962_j75256416960673_2_alg».proof.Proof.Gen.KernelIdeal.Frame
import proofs.«164962_j75256416960673_2_alg».proof.Proof.Dense
import proofs.«164962_j75256416960673_2_alg».proof.Proof.LibConvBody

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at row `p`, column `c` of a block, from the blocks it loaded. -/
theorem pay_apply (v0 : Vec Ideal S10000x64 .f32) (v2 : Vec Ideal S10000x1 .f32) (v6 : Vec Ideal S64x128 .f32)
    (v8 : Vec Ideal S10000x64 .f32) (v9 : Vec Ideal S64x128 .f32) (v11 : Vec Ideal S1x128 .f32)
    (p : Fin 10000) (c : Fin 128) :
    k0_pay1 v0 v2 v6 v8 v9 v11 (ix2 p c)
      = max ((∑ q : Fin 64, v0 (ix2 p q) * v2 (ix2 p (0 : Fin 1)) * v6 (ix2 q c)) + v11 (ix2 (0 : Fin 1) c)
              + ∑ q : Fin 64, v8 (ix2 p q) * v9 (ix2 q c)) Dense.zero := by
  unfold k0_pay1
  simp only [shapeCast_self]
  exact congrArg (fun s => max s Dense.zero)
    (LibConvBody.body_apply (some .fp32) (some .fp32) v0 v8 v2 v6 v9 v11 _ _ p c)

/-- The whole output array: the clamped layer of the whole input arrays, the inverse degrees read off their column and
    the bias off its row. -/
def G (A X : S100000x64.Idx → EReal) (C : S100000x1.Idx → EReal) (WL WR : S64x128.Idx → EReal)
    (B : S1x128.Idx → EReal) : S100000x128.Idx → EReal :=
  Dense.convClamp (n := 100000) (k := 64) (h := 128) A X (fun i => C (ix2 (i 0) (0 : Fin 1))) WL WR
    (fun i => B (ix2 (0 : Fin 1) (i 0)))

theorem hz : (![0, 0] : Fin 2 → Nat) = fun _ => 0 := funext fun a => by fin_cases a <;> rfl

/-- The printed index maps over the ten points: the three moving inputs and the output sit at block row t, column 0;
    the weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the aggregated features' block at point `t` is row t·10000 + p of the array. -/
theorem read_agg (c : Dev nD) (t : Fin cfg0.N) (p : Fin 10000) (q : Fin 64) (r : Fin 100000)
    (hr : r.val = t.val * 10000 + p.val) :
    iblk0 V c 0 t (ix2 p q) = V c main_v25 (ix2 r q) := by
  obtain ⟨e, e', -⟩ := idx_facts t
  show V c (Pipeline.arrRef spec0 0) (((cfg0.win 0).blk t).view.emb (ix2 p q)) = _
  refine congrArg (V c main_v25) ?_
  funext a; apply Fin.ext
  match a with
  | ⟨0, _⟩ => show win0_0.index t (0 : Fin 2) * 10000 + 1 * p.val = r.val; omega
  | ⟨1, _⟩ => show win0_0.index t (1 : Fin 2) * 64 + 1 * q.val = q.val; omega

/-- Row `p` of the node features' block at point `t` is row t·10000 + p of the array. -/
theorem read_x (c : Dev nD) (t : Fin cfg0.N) (p : Fin 10000) (q : Fin 64) (r : Fin 100000)
    (hr : r.val = t.val * 10000 + p.val) :
    iblk0 V c 1 t (ix2 p q) = V c main_arg0 (ix2 r q) := by
  obtain ⟨-, -, e, e', -⟩ := idx_facts t
  show V c (Pipeline.arrRef spec0 1) (((cfg0.win 1).blk t).view.emb (ix2 p q)) = _
  refine congrArg (V c main_arg0) ?_
  funext a; apply Fin.ext
  match a with
  | ⟨0, _⟩ => show win0_1.index t (0 : Fin 2) * 10000 + 1 * p.val = r.val; omega
  | ⟨1, _⟩ => show win0_1.index t (1 : Fin 2) * 64 + 1 * q.val = q.val; omega

/-- Entry `p` of the inverse-degree column's block at point `t` is entry t·10000 + p of the column. -/
theorem read_col (c : Dev nD) (t : Fin cfg0.N) (p : Fin 10000) (r : Fin 100000)
    (hr : r.val = t.val * 10000 + p.val) :
    iblk0 V c 2 t (ix2 p (0 : Fin 1)) = V c main_v15 (ix2 r (0 : Fin 1)) := by
  obtain ⟨-, -, -, -, e, e', -⟩ := idx_facts t
  show V c (Pipeline.arrRef spec0 2) (((cfg0.win 2).blk t).view.emb (ix2 p (0 : Fin 1))) = _
  refine congrArg (V c main_v15) ?_
  funext a; apply Fin.ext
  match a with
  | ⟨0, _⟩ => show win0_2.index t (0 : Fin 2) * 10000 + 1 * p.val = r.val; omega
  | ⟨1, _⟩ => show win0_2.index t (1 : Fin 2) * 1 + 1 * 0 = 0; omega

/-- The first weight's block is the weight. -/
theorem read_wl (c : Dev nD) (t : Fin cfg0.N) (q : Fin 64) (k : Fin 128) :
    iblk0 V c 3 t (ix2 q k) = V c main_arg3 (ix2 q k) := by
  obtain ⟨-, -, -, -, -, -, e, e', -⟩ := idx_facts t
  show V c (Pipeline.arrRef spec0 3) (((cfg0.win 3).blk t).view.emb (ix2 q k)) = _
  refine congrArg (V c main_arg3) ?_
  funext a; apply Fin.ext
  match a with
  | ⟨0, _⟩ => show win0_3.index t (0 : Fin 2) * 64 + 1 * q.val = q.val; omega
  | ⟨1, _⟩ => show win0_3.index t (1 : Fin 2) * 128 + 1 * k.val = k.val; omega

/-- The bias row's block is the row. -/
theorem read_row (c : Dev nD) (t : Fin cfg0.N) (k : Fin 128) :
    iblk0 V c 4 t (ix2 (0 : Fin 1) k) = V c main_v26 (ix2 (0 : Fin 1) k) := by
  obtain ⟨-, -, -, -, -, -, -, -, e, e', -⟩ := idx_facts t
  show V c (Pipeline.arrRef spec0 4) (((cfg0.win 4).blk t).view.emb (ix2 (0 : Fin 1) k)) = _
  refine congrArg (V c main_v26) ?_
  funext a; apply Fin.ext
  match a with
  | ⟨0, _⟩ => show win0_4.index t (0 : Fin 2) * 1 + 1 * 0 = 0; omega
  | ⟨1, _⟩ => show win0_4.index t (1 : Fin 2) * 128 + 1 * k.val = k.val; omega

/-- The second weight's block is the weight. -/
theorem read_wr (c : Dev nD) (t : Fin cfg0.N) (q : Fin 64) (k : Fin 128) :
    iblk0 V c 5 t (ix2 q k) = V c main_arg5 (ix2 q k) := by
  obtain ⟨-, -, -, -, -, -, -, -, -, -, e, e', -⟩ := idx_facts t
  show V c (Pipeline.arrRef spec0 5) (((cfg0.win 5).blk t).view.emb (ix2 q k)) = _
  refine congrArg (V c main_arg5) ?_
  funext a; apply Fin.ext
  match a with
  | ⟨0, _⟩ => show win0_5.index t (0 : Fin 2) * 64 + 1 * q.val = q.val; omega
  | ⟨1, _⟩ => show win0_5.index t (1 : Fin 2) * 128 + 1 * k.val = k.val; omega

/-- WHAT POINT `t` WRITES BACK is block `t` of the whole-array function of the arrays as the region finds them. -/
theorem flushed_eq (c : Dev nD) (t : Fin cfg0.N) :
    (dat0 V c).flushed 6 t = ((cfg0.win 6).blk t).view.read (Elt Ideal)
      (G (V c main_v25) (V c main_arg0) (V c main_v15) (V c main_arg3) (V c main_arg5) (V c main_v26)) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz,
    View.ld_unit_zero (S := S64x128) hz, View.ld_unit_zero (S := S1x128) hz]
  obtain ⟨-, -, -, -, -, -, -, -, -, -, -, -, e6, e6'⟩ := idx_facts t
  have hN : grid0.N = 10 := N_0
  have ht : t.val < 10 := hN ▸ t.isLt
  funext j
  have hj0 : (j 0).val < 10000 := (j 0).isLt
  have hj1 : (j 1).val < 128 := (j 1).isLt
  let p : Fin 10000 := ⟨(j 0).val, hj0⟩
  let k : Fin 128 := ⟨(j 1).val, hj1⟩
  let r : Fin 100000 := ⟨t.val * 10000 + (j 0).val, by omega⟩
  have hjp : j = ix2 p k := by funext a; match a with | ⟨0, _⟩ => rfl | ⟨1, _⟩ => rfl
  have hemb : ((cfg0.win 6).blk t).view.emb j = ix2 r k := by
    funext a; apply Fin.ext
    match a with
    | ⟨0, _⟩ => show win0_6.index t (0 : Fin 2) * 10000 + 1 * (j 0).val = t.val * 10000 + (j 0).val; omega
    | ⟨1, _⟩ => show win0_6.index t (1 : Fin 2) * 128 + 1 * (j 1).val = (j 1).val; omega
  show k0_pay1 (iblk0 V c 0 t) (iblk0 V c 2 t) (iblk0 V c 3 t) (iblk0 V c 1 t) (iblk0 V c 5 t) (iblk0 V c 4 t) j
    = G (V c main_v25) (V c main_arg0) (V c main_v15) (V c main_arg3) (V c main_arg5) (V c main_v26)
        (((cfg0.win 6).blk t).view.emb j)
  rw [hemb, hjp]
  refine (pay_apply _ _ _ _ _ _ p k).trans ?_
  show _ = max (Dense.convAt (V c main_v25) (V c main_arg0) (fun i => V c main_v15 (ix2 (i 0) (0 : Fin 1)))
      (V c main_arg3) (V c main_arg5) (fun i => V c main_v26 (ix2 (0 : Fin 1) (i 0))) r k) Dense.zero
  unfold Dense.convAt
  simp only [read_agg V c t p _ r rfl, read_x V c t p _ r rfl, read_col V c t p r rfl, read_wl V c t, read_row V c t,
    read_wr V c t]

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v27).slice (win0_6.rect t)).set ↔ _
  rw [View.set_slice_whole, Rect.mem_set_unit]
  exact Iff.rfl

/-- Every row is in some point's block: row r in block r / 10000. -/
theorem cover (i : S100000x128.Idx) :
    ∃ t : Fin cfg0.N, (cfg0.win 6).flush t = true ∧ i ∈ ((cfg0.win 6).blk t).view.set := by
  have h0 : (i 0).val < 100000 := (i 0).isLt
  have h1 : (i 1).val < 128 := (i 1).isLt
  have hN : grid0.N = 10 := N_0
  have hlt : (i 0).val / 10000 < grid0.N := by rw [hN]; omega
  obtain ⟨-, -, -, -, -, -, -, -, -, -, -, -, e6, e6'⟩ := idx_facts (⟨(i 0).val / 10000, hlt⟩ : Fin cfg0.N)
  refine ⟨⟨(i 0).val / 10000, hlt⟩, flush0_6 _, ?_⟩
  rw [mem_blk]
  intro a
  match a with
  | ⟨0, _⟩ =>
    show win0_6.index ⟨(i 0).val / 10000, hlt⟩ (0 : Fin 2) * 10000 ≤ (i 0).val
      ∧ (i 0).val < win0_6.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win0_6.index ⟨(i 0).val / 10000, hlt⟩ (1 : Fin 2) * 128 ≤ (i 1).val
      ∧ (i 1).val < win0_6.index ⟨(i 0).val / 10000, hlt⟩ (1 : Fin 2) * 128 + 128
    rw [e6']
    omega

/-- THE OUTPUT ARRAY after the region: the clamped layer of the arrays the region found. -/
theorem final (c : Dev nD) :
    (dat0 V c).arrAt 6 cfg0.N
      = G (V c main_v25) (V c main_arg0) (V c main_v15) (V c main_arg3) (V c main_arg5) (V c main_v26) :=
  (dat0 V c).arrAt_eq_of_cover 6 _ (fun t _ => flushed_eq V c t) cover

end Cert.KernelIdeal.Layer1

end
-- ==== Proof.K1.lean ====
/-
  The second layer's region: what its output array holds after the run, as one function of the arrays it reads.

  As the first layer's region, at width 128 and with no clamp: ten blocks of 10000 nodes; block t reads rows t·10000 …
  of the aggregated hidden features, of the hidden features and of the inverse-degree column, and the two weights and
  the bias row whole, and writes rows t·10000 … of the output. The block written back at t is block t of the layer of
  the whole input arrays, and the ten blocks tile the 100000 rows.
-/
import proofs.«164962_j75256416960673_2_alg».proof.Proof.Gen.KernelIdeal.Frame
import proofs.«164962_j75256416960673_2_alg».proof.Proof.Dense
import proofs.«164962_j75256416960673_2_alg».proof.Proof.LibConvBody

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at row `p`, column `c` of a block, from the blocks it loaded. -/
theorem pay_apply (v0 : Vec Ideal S10000x128 .f32) (v2 : Vec Ideal S10000x1 .f32) (v6 : Vec Ideal S128x128 .f32)
    (v8 : Vec Ideal S10000x128 .f32) (v9 : Vec Ideal S128x128 .f32) (v11 : Vec Ideal S1x128 .f32)
    (p : Fin 10000) (c : Fin 128) :
    k1_pay1 v0 v2 v6 v8 v9 v11 (ix2 p c)
      = (∑ q : Fin 128, v0 (ix2 p q) * v2 (ix2 p (0 : Fin 1)) * v6 (ix2 q c)) + v11 (ix2 (0 : Fin 1) c)
              + ∑ q : Fin 128, v8 (ix2 p q) * v9 (ix2 q c) := by
  unfold k1_pay1
  simp only [shapeCast_self]
  exact LibConvBody.body_apply (some .fp32) (some .fp32) v0 v8 v2 v6 v9 v11 _ _ p c

/-- The whole output array: the layer of the whole input arrays, the inverse degrees read off their column and
    the bias off its row. -/
def G (A X : S100000x128.Idx → EReal) (C : S100000x1.Idx → EReal) (WL WR : S128x128.Idx → EReal)
    (B : S1x128.Idx → EReal) : S100000x128.Idx → EReal :=
  Dense.conv (n := 100000) (k := 128) (h := 128) A X (fun i => C (ix2 (i 0) (0 : Fin 1))) WL WR
    (fun i => B (ix2 (0 : Fin 1) (i 0)))

theorem hz : (![0, 0] : Fin 2 → Nat) = fun _ => 0 := funext fun a => by fin_cases a <;> rfl

/-- The printed index maps over the ten points: the three moving inputs and the output sit at block row t, column 0;
    the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the aggregated features' block at point `t` is row t·10000 + p of the array. -/
theorem read_agg (c : Dev nD) (t : Fin cfg1.N) (p : Fin 10000) (q : Fin 128) (r : Fin 100000)
    (hr : r.val = t.val * 10000 + p.val) :
    iblk1 V c 0 t (ix2 p q) = V c main_v37 (ix2 r q) := by
  obtain ⟨e, e', -⟩ := idx_facts t
  show V c (Pipeline.arrRef spec1 0) (((cfg1.win 0).blk t).view.emb (ix2 p q)) = _
  refine congrArg (V c main_v37) ?_
  funext a; apply Fin.ext
  match a with
  | ⟨0, _⟩ => show win1_0.index t (0 : Fin 2) * 10000 + 1 * p.val = r.val; omega
  | ⟨1, _⟩ => show win1_0.index t (1 : Fin 2) * 128 + 1 * q.val = q.val; omega

/-- Row `p` of the node features' block at point `t` is row t·10000 + p of the array. -/
theorem read_x (c : Dev nD) (t : Fin cfg1.N) (p : Fin 10000) (q : Fin 128) (r : Fin 100000)
    (hr : r.val = t.val * 10000 + p.val) :
    iblk1 V c 1 t (ix2 p q) = V c main_v27 (ix2 r q) := by
  obtain ⟨-, -, e, e', -⟩ := idx_facts t
  show V c (Pipeline.arrRef spec1 1) (((cfg1.win 1).blk t).view.emb (ix2 p q)) = _
  refine congrArg (V c main_v27) ?_
  funext a; apply Fin.ext
  match a with
  | ⟨0, _⟩ => show win1_1.index t (0 : Fin 2) * 10000 + 1 * p.val = r.val; omega
  | ⟨1, _⟩ => show win1_1.index t (1 : Fin 2) * 128 + 1 * q.val = q.val; omega

/-- Entry `p` of the inverse-degree column's block at point `t` is entry t·10000 + p of the column. -/
theorem read_col (c : Dev nD) (t : Fin cfg1.N) (p : Fin 10000) (r : Fin 100000)
    (hr : r.val = t.val * 10000 + p.val) :
    iblk1 V c 2 t (ix2 p (0 : Fin 1)) = V c main_v15 (ix2 r (0 : Fin 1)) := by
  obtain ⟨-, -, -, -, e, e', -⟩ := idx_facts t
  show V c (Pipeline.arrRef spec1 2) (((cfg1.win 2).blk t).view.emb (ix2 p (0 : Fin 1))) = _
  refine congrArg (V c main_v15) ?_
  funext a; apply Fin.ext
  match a with
  | ⟨0, _⟩ => show win1_2.index t (0 : Fin 2) * 10000 + 1 * p.val = r.val; omega
  | ⟨1, _⟩ => show win1_2.index t (1 : Fin 2) * 1 + 1 * 0 = 0; omega

/-- The first weight's block is the weight. -/
theorem read_wl (c : Dev nD) (t : Fin cfg1.N) (q : Fin 128) (k : Fin 128) :
    iblk1 V c 3 t (ix2 q k) = V c main_arg6 (ix2 q k) := by
  obtain ⟨-, -, -, -, -, -, e, e', -⟩ := idx_facts t
  show V c (Pipeline.arrRef spec1 3) (((cfg1.win 3).blk t).view.emb (ix2 q k)) = _
  refine congrArg (V c main_arg6) ?_
  funext a; apply Fin.ext
  match a with
  | ⟨0, _⟩ => show win1_3.index t (0 : Fin 2) * 128 + 1 * q.val = q.val; omega
  | ⟨1, _⟩ => show win1_3.index t (1 : Fin 2) * 128 + 1 * k.val = k.val; omega

/-- The bias row's block is the row. -/
theorem read_row (c : Dev nD) (t : Fin cfg1.N) (k : Fin 128) :
    iblk1 V c 4 t (ix2 (0 : Fin 1) k) = V c main_v38 (ix2 (0 : Fin 1) k) := by
  obtain ⟨-, -, -, -, -, -, -, -, e, e', -⟩ := idx_facts t
  show V c (Pipeline.arrRef spec1 4) (((cfg1.win 4).blk t).view.emb (ix2 (0 : Fin 1) k)) = _
  refine congrArg (V c main_v38) ?_
  funext a; apply Fin.ext
  match a with
  | ⟨0, _⟩ => show win1_4.index t (0 : Fin 2) * 1 + 1 * 0 = 0; omega
  | ⟨1, _⟩ => show win1_4.index t (1 : Fin 2) * 128 + 1 * k.val = k.val; omega

/-- The second weight's block is the weight. -/
theorem read_wr (c : Dev nD) (t : Fin cfg1.N) (q : Fin 128) (k : Fin 128) :
    iblk1 V c 5 t (ix2 q k) = V c main_arg8 (ix2 q k) := by
  obtain ⟨-, -, -, -, -, -, -, -, -, -, e, e', -⟩ := idx_facts t
  show V c (Pipeline.arrRef spec1 5) (((cfg1.win 5).blk t).view.emb (ix2 q k)) = _
  refine congrArg (V c main_arg8) ?_
  funext a; apply Fin.ext
  match a with
  | ⟨0, _⟩ => show win1_5.index t (0 : Fin 2) * 128 + 1 * q.val = q.val; omega
  | ⟨1, _⟩ => show win1_5.index t (1 : Fin 2) * 128 + 1 * k.val = k.val; omega

/-- WHAT POINT `t` WRITES BACK is block `t` of the whole-array function of the arrays as the region finds them. -/
theorem flushed_eq (c : Dev nD) (t : Fin cfg1.N) :
    (dat1 V c).flushed 6 t = ((cfg1.win 6).blk t).view.read (Elt Ideal)
      (G (V c main_v37) (V c main_v27) (V c main_v15) (V c main_arg6) (V c main_arg8) (V c main_v38)) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  obtain ⟨-, -, -, -, -, -, -, -, -, -, -, -, e6, e6'⟩ := idx_facts t
  have hN : grid1.N = 10 := N_1
  have ht : t.val < 10 := hN ▸ t.isLt
  funext j
  have hj0 : (j 0).val < 10000 := (j 0).isLt
  have hj1 : (j 1).val < 128 := (j 1).isLt
  let p : Fin 10000 := ⟨(j 0).val, hj0⟩
  let k : Fin 128 := ⟨(j 1).val, hj1⟩
  let r : Fin 100000 := ⟨t.val * 10000 + (j 0).val, by omega⟩
  have hjp : j = ix2 p k := by funext a; match a with | ⟨0, _⟩ => rfl | ⟨1, _⟩ => rfl
  have hemb : ((cfg1.win 6).blk t).view.emb j = ix2 r k := by
    funext a; apply Fin.ext
    match a with
    | ⟨0, _⟩ => show win1_6.index t (0 : Fin 2) * 10000 + 1 * (j 0).val = t.val * 10000 + (j 0).val; omega
    | ⟨1, _⟩ => show win1_6.index t (1 : Fin 2) * 128 + 1 * (j 1).val = (j 1).val; omega
  show k1_pay1 (iblk1 V c 0 t) (iblk1 V c 2 t) (iblk1 V c 3 t) (iblk1 V c 1 t) (iblk1 V c 5 t) (iblk1 V c 4 t) j
    = G (V c main_v37) (V c main_v27) (V c main_v15) (V c main_arg6) (V c main_arg8) (V c main_v38)
        (((cfg1.win 6).blk t).view.emb j)
  rw [hemb, hjp]
  refine (pay_apply _ _ _ _ _ _ p k).trans ?_
  show _ = Dense.convAt (V c main_v37) (V c main_v27) (fun i => V c main_v15 (ix2 (i 0) (0 : Fin 1)))
      (V c main_arg6) (V c main_arg8) (fun i => V c main_v38 (ix2 (0 : Fin 1) (i 0))) r k
  unfold Dense.convAt
  simp only [read_agg V c t p _ r rfl, read_x V c t p _ r rfl, read_col V c t p r rfl, read_wl V c t, read_row V c t,
    read_wr V c t]

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v39).slice (win1_6.rect t)).set ↔ _
  rw [View.set_slice_whole, Rect.mem_set_unit]
  exact Iff.rfl

/-- Every row is in some point's block: row r in block r / 10000. -/
theorem cover (i : S100000x128.Idx) :
    ∃ t : Fin cfg1.N, (cfg1.win 6).flush t = true ∧ i ∈ ((cfg1.win 6).blk t).view.set := by
  have h0 : (i 0).val < 100000 := (i 0).isLt
  have h1 : (i 1).val < 128 := (i 1).isLt
  have hN : grid1.N = 10 := N_1
  have hlt : (i 0).val / 10000 < grid1.N := by rw [hN]; omega
  obtain ⟨-, -, -, -, -, -, -, -, -, -, -, -, e6, e6'⟩ := idx_facts (⟨(i 0).val / 10000, hlt⟩ : Fin cfg1.N)
  refine ⟨⟨(i 0).val / 10000, hlt⟩, flush1_6 _, ?_⟩
  rw [mem_blk]
  intro a
  match a with
  | ⟨0, _⟩ =>
    show win1_6.index ⟨(i 0).val / 10000, hlt⟩ (0 : Fin 2) * 10000 ≤ (i 0).val
      ∧ (i 0).val < win1_6.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win1_6.index ⟨(i 0).val / 10000, hlt⟩ (1 : Fin 2) * 128 ≤ (i 1).val
      ∧ (i 1).val < win1_6.index ⟨(i 0).val / 10000, hlt⟩ (1 : Fin 2) * 128 + 128
    rw [e6']
    omega

/-- THE OUTPUT ARRAY after the region: the layer of the arrays the region found. -/
theorem final (c : Dev nD) :
    (dat1 V c).arrAt 6 cfg1.N
      = G (V c main_v37) (V c main_v27) (V c main_v15) (V c main_arg6) (V c main_arg8) (V c main_v38) :=
  (dat1 V c).arrAt_eq_of_cover 6 _ (fun t _ => flushed_eq V c t) cover

end Cert.KernelIdeal.Layer2

end
-- ==== Proof.LibDecodeBody.lean ====
/-
  The vector body of a two-input edge decoder, read at an index, for any extents.

  The body multiplies each endpoint's rows by its own [k, h] weight on the matrix unit from the zero splat and adds the
  two products, adds a bias row, clamps below at a scalar, scales every row by a second row (the last linear map's
  weight laid along the lanes), sums each row over its lanes, stands the sums up as a column and adds a [1, 1] bias.
  At row p this is

      Σ_c max( Σ_q z0(p,q) · W_t(q,c) + Σ_q z1(p,q) · W_b(q,c) + b1(0,c) , z ) · w2(0,c)  +  b2(0,0).
-/
import proofs.«164962_j75256416960673_2_alg».proof.Proof.LibPlainDot
import proofs.«164962_j75256416960673_2_alg».proof.Proof.LibKeepdims
import Idealize.ShloMosaic.Lib.ValueLayout

noncomputable section

namespace Cert.LibDecodeBody

open Idealize.ShloMosaic Idealize.ShloMosaic.ValueIdx

/-- The decoder body at row `p` of its one-column result. -/
theorem body_apply {a k h : ℕ} (prec₁ prec₂ : Option ContractPrecision)
    (z0 z1 : FVec Ideal ⟨2, ![a, k]⟩ .f32) (wt wb : FVec Ideal ⟨2, ![k, h]⟩ .f32)
    (b1 w2 : FVec Ideal ⟨2, ![1, h]⟩ .f32) (b2 : FVec Ideal ⟨2, ![1, 1]⟩ .f32) (z : EReal)
    (hb1 hw2 : (⟨2, ![1, h]⟩ : Shape).Broadcasts ⟨2, ![a, h]⟩)
    (hred : (⟨2, ![a, h]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩)
    (hb2 : (⟨2, ![1, 1]⟩ : Shape).Broadcasts ⟨2, ![a, 1]⟩) (p : Fin a) (u : Fin 1) :
    addf (shapeCast ⟨2, ![a, 1]⟩
            (multiReduction .add [1] ⟨1, ![a]⟩
              (mulf (maximumf (addf (addf (FloatOps.matmul (DotDims.plain a k h) prec₁ z0 wt (constant ⟨2, ![a, h]⟩ .f32 0x00000000#32))
                                          (FloatOps.matmul (DotDims.plain a k h) prec₂ z1 wb (constant ⟨2, ![a, h]⟩ .f32 0x00000000#32)))
                                    (broadcastTo ⟨2, ![a, h]⟩ b1 hb1))
                              (broadcast ⟨2, ![a, h]⟩ z))
                    (broadcastTo ⟨2, ![a, h]⟩ w2 hw2))
              0x00000000#32 hred hφ hacc) hcast)
         (broadcastTo ⟨2, ![a, 1]⟩ b2 hb2) (ix2 p u)
      = (∑ c : Fin h, max ((∑ q : Fin k, z0 (ix2 p q) * wt (ix2 q c)) + (∑ q : Fin k, z1 (ix2 p q) * wb (ix2 q c))
                            + b1 (ix2 (0 : Fin 1) c)) z * w2 (ix2 (0 : Fin 1) c))
          + b2 (ix2 (0 : Fin 1) (0 : Fin 1)) := by
  have hu : u = 0 := Subsingleton.elim _ _
  subst hu
  rw [addf_apply, Cert.Keepdims.shapeCast_a_a1_apply _ hcast p 0, Cert.Keepdims.laneSum_apply _ hred hφ hacc p,
    broadcastTo_1b_ab_apply b2 hb2 p (0 : Fin 1)]
  refine congrArg₂ (· + ·) ?_ rfl
  refine Finset.sum_congr rfl fun c _ => ?_
  rw [mulf_apply, maximumf_apply, addf_apply, addf_apply, broadcast_apply, LibPlainDot.matmul_zero_apply,
    LibPlainDot.matmul_zero_apply, broadcastTo_1b_ab_apply b1 hb1 p c, broadcastTo_1b_ab_apply w2 hw2 p c]
  rfl

end Cert.LibDecodeBody

end
-- ==== Proof.K2.lean ====
/-
  The decoder's region: what its output array holds after the run, as one function of the arrays it reads.

  The region walks fifty blocks of 10000 label edges. At block t it reads rows t·10000 … t·10000 + 9999 of the two
  gathered endpoint embeddings, and the two halves of the first weight, its bias row, the second weight laid as a row and
  the last bias whole; it writes rows t·10000 … of the one-column output. Row p of block t is edge t·10000 + p, so the
  block written back at t is block t of ONE array: the decoder of the whole input arrays. The fifty blocks tile the
  500000 rows, so the output array ends holding that array.
-/
import proofs.«164962_j75256416960673_2_alg».proof.Proof.Gen.KernelIdeal.Frame
import proofs.«164962_j75256416960673_2_alg».proof.Proof.Dense
import proofs.«164962_j75256416960673_2_alg».proof.Proof.LibDecodeBody

set_option maxRecDepth 16384

noncomputable section

namespace Cert.KernelIdeal.Decoder

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The decoder of row `p`: both endpoints through their halves of the first weight, the bias row, the clamp at zero,
    the second weight's row, the last bias. -/
def GAt {e : ℕ} (Z0 Z1 : (⟨2, ![e, 128]⟩ : Shape).Idx → EReal) (WT WB : S128x128.Idx → EReal) (B1 W2 : S1x128.Idx → EReal)
    (B2 : S1x1.Idx → EReal) (p : Fin e) : EReal :=
  (∑ c : Fin 128, max ((∑ q : Fin 128, Z0 (ix2 p q) * WT (ix2 q c)) + (∑ q : Fin 128, Z1 (ix2 p q) * WB (ix2 q c))
      + B1 (ix2 (0 : Fin 1) c)) Dense.zero * W2 (ix2 (0 : Fin 1) c)) + B2 (ix2 (0 : Fin 1) (0 : Fin 1))

/-- The body's stored value at row `p` of a block, from the blocks it loaded. -/
theorem pay_apply (v0 : Vec Ideal S10000x128 .f32) (v2 : Vec Ideal S128x128 .f32) (v5 : Vec Ideal S10000x128 .f32)
    (v7 : Vec Ideal S128x128 .f32) (v11 v17 : Vec Ideal S1x128 .f32) (v23 : Vec Ideal S1x1 .f32)
    (p : Fin 10000) (u : Fin 1) :
    k2_pay1 v0 v2 v5 v7 v11 v17 v23 (ix2 p u) = GAt (e := 10000) v0 v5 v2 v7 v11 v17 v23 p := by
  unfold k2_pay1
  simp only [shapeCast_self]
  exact LibDecodeBody.body_apply (some .fp32) (some .fp32) v0 v5 v2 v7 v11 v17 v23 _ _ _ _ _ _ _ _ p u

/-- The whole output array: the decoder of the whole input arrays, one column. -/
def G (Z0 Z1 : S500000x128.Idx → EReal) (WT WB : S128x128.Idx → EReal) (B1 W2 : S1x128.Idx → EReal)
    (B2 : S1x1.Idx → EReal) : S500000x1.Idx → EReal :=
  fun j => GAt (e := 500000) Z0 Z1 WT WB B1 W2 B2 (j 0)

theorem hz : (![0, 0] : Fin 2 → Nat) = fun _ => 0 := funext fun a => by fin_cases a <;> rfl

/-- The printed index maps over the fifty points: the two moving inputs and the output sit at block row t, column 0;
    every other input at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the first endpoint's block at point `t` is row t·10000 + p of the array. -/
theorem read_z0 (c : Dev nD) (t : Fin cfg2.N) (p : Fin 10000) (q : Fin 128) (r : Fin 500000)
    (hr : r.val = t.val * 10000 + p.val) :
    iblk2 V c 0 t (ix2 p q) = V c main_v50 (ix2 r q) := by
  obtain ⟨e, e', -⟩ := idx_facts t
  show V c (Pipeline.arrRef spec2 0) (((cfg2.win 0).blk t).view.emb (ix2 p q)) = _
  refine congrArg (V c main_v50) ?_
  funext a; apply Fin.ext
  match a with
  | ⟨0, _⟩ => show win2_0.index t (0 : Fin 2) * 10000 + 1 * p.val = r.val; omega
  | ⟨1, _⟩ => show win2_0.index t (1 : Fin 2) * 128 + 1 * q.val = q.val; omega

/-- Row `p` of the second endpoint's block at point `t` is row t·10000 + p of the array. -/
theorem read_z1 (c : Dev nD) (t : Fin cfg2.N) (p : Fin 10000) (q : Fin 128) (r : Fin 500000)
    (hr : r.val = t.val * 10000 + p.val) :
    iblk2 V c 1 t (ix2 p q) = V c main_v57 (ix2 r q) := by
  obtain ⟨-, -, e, e', -⟩ := idx_facts t
  show V c (Pipeline.arrRef spec2 1) (((cfg2.win 1).blk t).view.emb (ix2 p q)) = _
  refine congrArg (V c main_v57) ?_
  funext a; apply Fin.ext
  match a with
  | ⟨0, _⟩ => show win2_1.index t (0 : Fin 2) * 10000 + 1 * p.val = r.val; omega
  | ⟨1, _⟩ => show win2_1.index t (1 : Fin 2) * 128 + 1 * q.val = q.val; omega

/-- The first weight's upper half's block is that array. -/
theorem read_wt (c : Dev nD) (t : Fin cfg2.N) (q k : Fin 128) :
    iblk2 V c 2 t (ix2 q k) = V c main_v58 (ix2 q k) := by
  obtain ⟨-, -, -, -, e, e', -⟩ := idx_facts t
  show V c (Pipeline.arrRef spec2 2) (((cfg2.win 2).blk t).view.emb (ix2 q k)) = _
  refine congrArg (V c main_v58) ?_
  funext a; apply Fin.ext
  match a with
  | ⟨0, _⟩ => show win2_2.index t (0 : Fin 2) * 128 + 1 * q.val = q.val; omega
  | ⟨1, _⟩ => show win2_2.index t (1 : Fin 2) * 128 + 1 * k.val = k.val; omega

/-- The first weight's lower half's block is that array. -/
theorem read_wb (c : Dev nD) (t : Fin cfg2.N) (q k : Fin 128) :
    iblk2 V c 3 t (ix2 q k) = V c main_v59 (ix2 q k) := by
  obtain ⟨-, -, -, -, -, -, e, e', -⟩ := idx_facts t
  show V c (Pipeline.arrRef spec2 3) (((cfg2.win 3).blk t).view.emb (ix2 q k)) = _
  refine congrArg (V c main_v59) ?_
  funext a; apply Fin.ext
  match a with
  | ⟨0, _⟩ => show win2_3.index t (0 : Fin 2) * 128 + 1 * q.val = q.val; omega
  | ⟨1, _⟩ => show win2_3.index t (1 : Fin 2) * 128 + 1 * k.val = k.val; omega

/-- The first bias row's block is the row. -/
theorem read_b1 (c : Dev nD) (t : Fin cfg2.N) (k : Fin 128) :
    iblk2 V c 4 t (ix2 (0 : Fin 1) k) = V c main_v61 (ix2 (0 : Fin 1) k) := by
  obtain ⟨-, -, -, -, -, -, -, -, e, e', -⟩ := idx_facts t
  show V c (Pipeline.arrRef spec2 4) (((cfg2.win 4).blk t).view.emb (ix2 (0 : Fin 1) k)) = _
  refine congrArg (V c main_v61) ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

/-- The second weight's row's block is the row. -/
theorem read_w2 (c : Dev nD) (t : Fin cfg2.N) (k : Fin 128) :
    iblk2 V c 5 t (ix2 (0 : Fin 1) k) = V c main_v60 (ix2 (0 : Fin 1) k) := by
  obtain ⟨-, -, -, -, -, -, -, -, -, -, e, e', -⟩ := idx_facts t
  show V c (Pipeline.arrRef spec2 5) (((cfg2.win 5).blk t).view.emb (ix2 (0 : Fin 1) k)) = _
  refine congrArg (V c main_v60) ?_
  funext a; apply Fin.ext
  match a with
  | ⟨0, _⟩ => show win2_5.index t (0 : Fin 2) * 1 + 1 * 0 = 0; omega
  | ⟨1, _⟩ => show win2_5.index t (1 : Fin 2) * 128 + 1 * k.val = k.val; omega

/-- The last bias' block is the bias. -/
theorem read_b2 (c : Dev nD) (t : Fin cfg2.N) :
    iblk2 V c 6 t (ix2 (0 : Fin 1) (0 : Fin 1)) = V c main_v62 (ix2 (0 : Fin 1) (0 : Fin 1)) := by
  obtain ⟨-, -, -, -, -, -, -, -, -, -, -, -, e, e', -⟩ := idx_facts t
  show V c (Pipeline.arrRef spec2 6) (((cfg2.win 6).blk t).view.emb (ix2 (0 : Fin 1) (0 : Fin 1))) = _
  refine congrArg (V c main_v62) ?_
  funext a; apply Fin.ext
  match a with
  | ⟨0, _⟩ => show win2_6.index t (0 : Fin 2) * 1 + 1 * 0 = 0; omega
  | ⟨1, _⟩ => show win2_6.index t (1 : Fin 2) * 1 + 1 * 0 = 0; omega

/-- WHAT POINT `t` WRITES BACK is block `t` of the whole-array function of the arrays as the region finds them. -/
theorem flushed_eq (c : Dev nD) (t : Fin cfg2.N) :
    (dat2 V c).flushed 7 t = ((cfg2.win 7).blk t).view.read (Elt Ideal)
      (G (V c main_v50) (V c main_v57) (V c main_v58) (V c main_v59) (V c main_v61) (V c main_v60) (V c main_v62)) := by
  show (cfg2.win 7).cut (grid2.coords t) ((dat2 V c).after 7 t) = _
  rw [after2_7]
  unfold out2_7
  rw [View.canon_unit_zero hz]
  simp only [View.ld_unit_zero (S := S10000x128) hz, View.ld_unit_zero (S := S128x128) hz,
    View.ld_unit_zero (S := S1x128) hz, View.ld_unit_zero (S := S1x1) hz]
  obtain ⟨-, -, -, -, -, -, -, -, -, -, -, -, -, -, e7, e7'⟩ := idx_facts t
  have hN : grid2.N = 50 := N_2
  have ht : t.val < 50 := hN ▸ t.isLt
  funext j
  have hj0 : (j 0).val < 10000 := (j 0).isLt
  have hj1 : (j 1).val < 1 := (j 1).isLt
  let p : Fin 10000 := ⟨(j 0).val, hj0⟩
  let u : Fin 1 := ⟨(j 1).val, hj1⟩
  let r : Fin 500000 := ⟨t.val * 10000 + (j 0).val, by omega⟩
  have hjp : j = ix2 p u := by funext a; match a with | ⟨0, _⟩ => rfl | ⟨1, _⟩ => rfl
  have hemb : ((cfg2.win 7).blk t).view.emb j = ix2 r u := by
    funext a; apply Fin.ext
    match a with
    | ⟨0, _⟩ => show win2_7.index t (0 : Fin 2) * 10000 + 1 * (j 0).val = t.val * 10000 + (j 0).val; omega
    | ⟨1, _⟩ => show win2_7.index t (1 : Fin 2) * 1 + 1 * (j 1).val = (j 1).val; omega
  show k2_pay1 (iblk2 V c 0 t) (iblk2 V c 2 t) (iblk2 V c 1 t) (iblk2 V c 3 t) (iblk2 V c 4 t) (iblk2 V c 5 t) (iblk2 V c 6 t) j
    = G (V c main_v50) (V c main_v57) (V c main_v58) (V c main_v59) (V c main_v61) (V c main_v60) (V c main_v62)
        (((cfg2.win 7).blk t).view.emb j)
  rw [hemb, hjp]
  refine (pay_apply _ _ _ _ _ _ _ p u).trans ?_
  show _ = GAt (e := 500000) (V c main_v50) (V c main_v57) (V c main_v58) (V c main_v59) (V c main_v61) (V c main_v60)
      (V c main_v62) r
  unfold GAt
  simp only [read_z0 V c t p _ r rfl, read_z1 V c t p _ r rfl, read_wt V c t, read_wb V c t, read_b1 V c t, read_w2 V c t,
    read_b2 V c t]

/-- An index of the output array is in point `t`'s block iff each coordinate is in the block's range on its axis. -/
theorem mem_blk (t : Fin cfg2.N) (i : S500000x1.Idx) :
    i ∈ ((cfg2.win 7).blk t).view.set ↔ ∀ a : Fin 2, win2_7.index t a * S10000x1.size a ≤ (i a).val
      ∧ (i a).val < win2_7.index t a * S10000x1.size a + S10000x1.size a := by
  show i ∈ ((View.whole main_v63).slice (win2_7.rect t)).set ↔ _
  rw [View.set_slice_whole, Rect.mem_set_unit]
  exact Iff.rfl

/-- Every row is in some point's block: row r in block r / 10000. -/
theorem cover (i : S500000x1.Idx) :
    ∃ t : Fin cfg2.N, (cfg2.win 7).flush t = true ∧ i ∈ ((cfg2.win 7).blk t).view.set := by
  have h0 : (i 0).val < 500000 := (i 0).isLt
  have h1 : (i 1).val < 1 := (i 1).isLt
  have hN : grid2.N = 50 := N_2
  have hlt : (i 0).val / 10000 < grid2.N := by rw [hN]; omega
  obtain ⟨-, -, -, -, -, -, -, -, -, -, -, -, -, -, e7, e7'⟩ := idx_facts (⟨(i 0).val / 10000, hlt⟩ : Fin cfg2.N)
  refine ⟨⟨(i 0).val / 10000, hlt⟩, flush2_7 _, ?_⟩
  rw [mem_blk]
  intro a
  match a with
  | ⟨0, _⟩ =>
    show win2_7.index ⟨(i 0).val / 10000, hlt⟩ (0 : Fin 2) * 10000 ≤ (i 0).val
      ∧ (i 0).val < win2_7.index ⟨(i 0).val / 10000, hlt⟩ (0 : Fin 2) * 10000 + 10000
    rw [e7]
    show (i 0).val / 10000 * 10000 ≤ (i 0).val ∧ (i 0).val < (i 0).val / 10000 * 10000 + 10000
    omega
  | ⟨1, _⟩ =>
    show win2_7.index ⟨(i 0).val / 10000, hlt⟩ (1 : Fin 2) * 1 ≤ (i 1).val
      ∧ (i 1).val < win2_7.index ⟨(i 0).val / 10000, hlt⟩ (1 : Fin 2) * 1 + 1
    rw [e7']
    omega

/-- THE OUTPUT ARRAY after the region: the decoder of the arrays the region found. -/
theorem final (c : Dev nD) :
    (dat2 V c).arrAt 7 cfg2.N
      = G (V c main_v50) (V c main_v57) (V c main_v58) (V c main_v59) (V c main_v61) (V c main_v60) (V c main_v62) :=
  (dat2 V c).arrAt_eq_of_cover 7 _ (fun t _ => flushed_eq V c t) cover

end Cert.KernelIdeal.Decoder

end
-- ==== Proof.KValue.lean ====
/-
  The program's result as one function of its argument arrays.

  Each region's output array is the dense function of the arrays it found (the three region modules), and what each
  region finds is what the host side left (the host module). Composing them: the first region's output is the hidden
  features, the second's the embeddings, the third's the scores column, and the result buffer is that column reshaped to
  a vector.
-/
import proofs.«164962_j75256416960673_2_alg».proof.Proof.KHost
import proofs.«164962_j75256416960673_2_alg».proof.Proof.K0
import proofs.«164962_j75256416960673_2_alg».proof.Proof.K1
import proofs.«164962_j75256416960673_2_alg».proof.Proof.K2

set_option maxRecDepth 16384
set_option maxHeartbeats 2000000

noncomputable section

namespace Cert.KernelIdeal.Composite

open Cert.KernelIdeal Cert.KernelIdeal.Gen
open Idealize.ShloMosaic Idealize.ShloMosaic.TcCoe Idealize.ShloMosaic.ValueIdx Idealize.ShloMosaic.StableHlo
open Idealize.SL Idealize.SL.Sem

/-! ## Through the regions, on the extended reals -/

section Regions

variable (x1 : (⟨S2x1600000, .i32⟩ : BufTy).Contents (Elt Ideal)) (x2 : (⟨S2x500000, .i32⟩ : BufTy).Contents (Elt Ideal))
variable (x0 : (⟨S100000x64, .f32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal)) (x12 : (⟨S1, .f32⟩ : BufTy).Contents (Elt Ideal))

/-- The hidden features: the first region's function of what the host hands it. -/
def hid : (⟨S100000x128, .f32⟩ : BufTy).Contents (Elt Ideal) :=
  Layer1.G (agg64 x1 x0) x0 (shapeCast S100000x1 (invDeg x1) shapeCasts_S100000_S100000x1) x3 x5 (shapeCast S1x128 x4 shapeCasts_S128_S1x128)

/-- The embeddings: the second region's function of what the host hands it. -/
def emb : (⟨S100000x128, .f32⟩ : BufTy).Contents (Elt Ideal) :=
  Layer2.G (agg128 x1 (hid x1 x0 x3 x4 x5)) (hid x1 x0 x3 x4 x5) (shapeCast S100000x1 (invDeg x1) shapeCasts_S100000_S100000x1) x6 x8
    (shapeCast S1x128 x7 shapeCasts_S128_S1x128)

/-- The scores column: the decoder region's function of what the host hands it. -/
def out : (⟨S500000x1, .f32⟩ : BufTy).Contents (Elt Ideal) :=
  Decoder.G (pick (emb x1 x0 x3 x4 x5 x6 x7 x8) (lblCol (lblIdx0 x2))) (pick (emb x1 x0 x3 x4 x5 x6 x7 x8) (lblCol (lblIdx1 x2)))
    (extractStridedSlice S128x128 ![0, 0] x9 slices_S256x128_S128x128_0_0)
    (extractStridedSlice S128x128 ![128, 0] x9 slices_S256x128_S128x128_128_0)
    (shapeCast S1x128 x10 shapeCasts_S128_S1x128) (transpose S1x128 [1, 0] x11 transposes_S128x1_S1x128_1_0)
    (shapeCast S1x1 x12 shapeCasts_S1_S1x1)

end Regions

variable (m : (ℓ : Loc nD τ sig) → Buf (Elt Ideal) ℓ) (ρ : Dev nD → PrngReg) (c : Dev nD)

/-- The first region's output array is the hidden features. -/
theorem r4_v27 : W4 m ρ c (Proc.devRef .tc main_v27) = hid (m ((c : Thread nD τ).loc main_arg1)) (m ((c : Thread nD τ).loc main_arg0)) (m ((c : Thread nD τ).loc main_arg3)) (m ((c : Thread nD τ).loc main_arg4)) (m ((c : Thread nD τ).loc main_arg5)) := by
  have h := (W4_arr m ρ c 6).trans (Layer1.final (V3 m ρ) c)
  rw [show V3 m ρ c main_v25 = _ from w3_v25 m ρ c, show V3 m ρ c main_arg0 = _ from w3_arg0 m ρ c,
    show V3 m ρ c main_v15 = _ from w3_v15 m ρ c, show V3 m ρ c main_arg3 = _ from w3_arg3 m ρ c,
    show V3 m ρ c main_arg5 = _ from w3_arg5 m ρ c, show V3 m ρ c main_v26 = _ from w3_v26 m ρ c] at h
  exact h

/-- The second region's output array is the embeddings. -/
theorem r6_v39 : W6 m ρ c (Proc.devRef .tc main_v39)
    = emb (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W6_arr m ρ c 6).trans (Layer2.final (V5 m ρ) c)
  rw [show V5 m ρ c main_v37 = _ from (w5_v37 m ρ c).trans (congrArg _ (r4_v27 m ρ c)),
    show V5 m ρ c main_v27 = _ from (w5_v27 m ρ c).trans (r4_v27 m ρ c),
    show V5 m ρ c main_v15 = _ from w5_v15 m ρ c, show V5 m ρ c main_arg6 = _ from w5_arg6 m ρ c,
    show V5 m ρ c main_arg8 = _ from w5_arg8 m ρ c, show V5 m ρ c main_v38 = _ from w5_v38 m ρ c] at h
  exact h

/-- The decoder region's output array is the scores column. -/
theorem r8_v63 : W8 m ρ c (Proc.devRef .tc main_v63) = out (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h := (W8_arr m ρ c 7).trans (Decoder.final (V7 m ρ) c)
  rw [show V7 m ρ c main_v50 = _ from (w7_v50 m ρ c).trans (congrArg (fun z => pick z _) (r6_v39 m ρ c)),
    show V7 m ρ c main_v57 = _ from (w7_v57 m ρ c).trans (congrArg (fun z => pick z _) (r6_v39 m ρ c)),
    show V7 m ρ c main_v58 = _ from w7_v58 m ρ c, show V7 m ρ c main_v59 = _ from w7_v59 m ρ c,
    show V7 m ρ c main_v61 = _ from w7_v61 m ρ c, show V7 m ρ c main_v60 = _ from w7_v60 m ρ c,
    show V7 m ρ c main_v62 = _ from w7_v62 m ρ c] at h
  exact h

/-- THE RESULT BUFFER after the run's last boundary: the scores column, reshaped to a vector. -/
theorem result : W9 m ρ c (Proc.devRef .tc main_v64)
    = shapeCast S500000 (out (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
        shapeCasts_S500000x1_S500000 :=
  (w9_v64 m ρ c).trans (congrArg (fun v => shapeCast S500000 v shapeCasts_S500000x1_S500000) (r8_v63 m ρ c))

end Cert.KernelIdeal.Composite

end
-- ==== Proof.Model.lean ====
/-
  The whole network as one function of its dense weights and of the graph-dependent pieces.

  The graph enters the computation only through four things: the inverse in-degrees, the first aggregate (neighbour sums
  of the input features), the map taking hidden features to their aggregate, and the two maps picking the endpoint rows
  of the label edges out of the embeddings. Given those, the network is: the clamped first layer, the second layer on it,
  and the decoder on the picked rows.
-/
import proofs.«164962_j75256416960673_2_alg».proof.Proof.Dense

noncomputable section

namespace Cert.Dense

open Idealize.ShloMosaic

/-- The decoder's one-column scores from the graph-dependent pieces and the weights. -/
def model (inv : (⟨1, ![100000]⟩ : Shape).Idx → EReal) (agg1 : (⟨2, ![100000, 64]⟩ : Shape).Idx → EReal)
    (aggOf : ((⟨2, ![100000, 128]⟩ : Shape).Idx → EReal) → (⟨2, ![100000, 128]⟩ : Shape).Idx → EReal)
    (pick0 pick1 : ((⟨2, ![100000, 128]⟩ : Shape).Idx → EReal) → (⟨2, ![500000, 128]⟩ : Shape).Idx → EReal)
    (x : (⟨2, ![100000, 64]⟩ : Shape).Idx → EReal) (w1l w1r : (⟨2, ![64, 128]⟩ : Shape).Idx → EReal)
    (b1 : (⟨1, ![128]⟩ : Shape).Idx → EReal) (w2l w2r : (⟨2, ![128, 128]⟩ : Shape).Idx → EReal)
    (b2 : (⟨1, ![128]⟩ : Shape).Idx → EReal) (dw1 : (⟨2, ![256, 128]⟩ : Shape).Idx → EReal)
    (db1 : (⟨1, ![128]⟩ : Shape).Idx → EReal) (dw2 : (⟨2, ![128, 1]⟩ : Shape).Idx → EReal)
    (db2 : (⟨1, ![1]⟩ : Shape).Idx → EReal) : (⟨2, ![500000, 1]⟩ : Shape).Idx → EReal :=
  score (pick0 (conv (aggOf (convClamp agg1 x inv w1l w1r b1)) (convClamp agg1 x inv w1l w1r b1) inv w2l w2r b2))
        (pick1 (conv (aggOf (convClamp agg1 x inv w1l w1r b1)) (convClamp agg1 x inv w1l w1r b1) inv w2l w2r b2))
        dw1 db1 dw2 db2

end Cert.Dense

end
-- ==== Proof.LibSideBySide.lean ====
/-
  Two arrays laid side by side, and a vector seen as a one-row matrix, read by coordinates.

  Concatenating two arrays along an axis keeps every other coordinate; along the joined axis a position below the first
  piece's extent reads the first piece at that position, and a position at or past it reads the second piece at the
  position less that extent. Stated here for two matrices with the same number of rows joined along the columns, and for
  two vectors, for any extents. The last lemma reads a vector reshaped to a matrix of one row: entry (0, q) is entry q,
  both having row-major position q.
-/
import Idealize.ShloMosaic.Lib.Pipeline.Value
import Idealize.ShloMosaic.Lib.ValueIdx

namespace Cert.LibSideBySide

open Idealize.ShloMosaic Idealize.ShloMosaic.ValueIdx

variable {α : Type}

/-- Two matrices joined along the columns, at a column inside the first: the first matrix at that column. -/
theorem cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₁) (col : Fin n)
    (hc : col.val = q.val) :
    concatenate ⟨2, ![a, n]⟩ 1 [⟨⟨2, ![a, b₁]⟩, x₁⟩, ⟨⟨2, ![a, b₂]⟩, x₂⟩] h (ix2 k col) = x₁ (ix2 k q) :=
  concatenate_pair_apply_left (1 : Fin 2) x₁ x₂ h (ix2 k col) rfl (ix2 k q) fun b => by
    match b with
    | ⟨0, _⟩ => rfl
    | ⟨1, _⟩ => exact hc.symm

/-- Two matrices joined along the columns, at a column past the first: the second matrix at the column less the first
    matrix's width. -/
theorem cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₂) (col : Fin n)
    (hc : col.val = b₁ + q.val) :
    concatenate ⟨2, ![a, n]⟩ 1 [⟨⟨2, ![a, b₁]⟩, x₁⟩, ⟨⟨2, ![a, b₂]⟩, x₂⟩] h (ix2 k col) = x₂ (ix2 k q) :=
  concatenate_pair_apply_right (1 : Fin 2) x₁ x₂ h (ix2 k col) rfl rfl (ix2 k q)
    (fun b hb => by
      match b, hb with
      | ⟨0, _⟩, _ => rfl
      | ⟨1, _⟩, hb => exact absurd rfl hb)
    (by show q.val + b₁ = col.val; omega)

/-- Two vectors joined, at a position inside the first: the first vector at that position. -/
theorem vec_left {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₁) (pos : Fin n) (hc : pos.val = q.val) :
    concatenate ⟨1, ![n]⟩ 0 [⟨⟨1, ![b₁]⟩, x₁⟩, ⟨⟨1, ![b₂]⟩, x₂⟩] h (ix1 pos) = x₁ (ix1 q) :=
  concatenate_pair_apply_left (0 : Fin 1) x₁ x₂ h (ix1 pos) rfl (ix1 q) fun b => by
    match b with
    | ⟨0, _⟩ => exact hc.symm

/-- Two vectors joined, at a position past the first: the second vector at the position less the first's length. -/
theorem vec_right {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₂) (pos : Fin n) (hc : pos.val = b₁ + q.val) :
    concatenate ⟨1, ![n]⟩ 0 [⟨⟨1, ![b₁]⟩, x₁⟩, ⟨⟨1, ![b₂]⟩, x₂⟩] h (ix1 pos) = x₂ (ix1 q) :=
  concatenate_pair_apply_right (0 : Fin 1) x₁ x₂ h (ix1 pos) rfl rfl (ix1 q)
    (fun b hb => by
      match b, hb with
      | ⟨0, _⟩, hb => exact absurd rfl hb)
    (by show q.val + b₁ = pos.val; omega)

/-- A vector reshaped to a matrix of one row reads, at (0, q), the vector at q. -/
theorem row_apply {n : ℕ} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = (0 : Fin 1).val * n + q.val
    simp)

end Cert.LibSideBySide
-- ==== Proof.KModel.lean ====
/-
  The kernel's result is the network function at the kernel's own graph-dependent pieces.

  The regions are handed the inverse degrees as a column, each bias as a row, the decoder's first weight as its two
  halves and its second weight transposed. Read at an index these are the vectors and matrices themselves: entry (p, 0)
  of the column is entry p, entry (0, c) of a row is entry c, row q of the lower half is row 128 + q, and entry (0, c) of
  the transpose is entry (c, 0).
-/
import proofs.«164962_j75256416960673_2_alg».proof.Proof.KValue
import proofs.«164962_j75256416960673_2_alg».proof.Proof.Model
import proofs.«164962_j75256416960673_2_alg».proof.Proof.LibKeepdims
import proofs.«164962_j75256416960673_2_alg».proof.Proof.LibSideBySide
import Idealize.ShloMosaic.Lib.ValueLayout

set_option maxRecDepth 16384

noncomputable section

namespace Cert.KernelIdeal.Composite

open Cert.KernelIdeal Cert.KernelIdeal.Gen Idealize.ShloMosaic Idealize.ShloMosaic.ValueIdx

/-- A vector stood up as a column, read back down its unit axis, is the vector. -/
theorem col_read (v : (⟨S100000, .f32⟩ : BufTy).Contents (Elt Ideal)) :
    (fun i : (⟨1, ![100000]⟩ : Shape).Idx => shapeCast S100000x1 v shapeCasts_S100000_S100000x1 (ix2 (i 0) (0 : Fin 1))) = v := by
  funext i
  obtain ⟨p, rfl⟩ : ∃ p : Fin 100000, i = ix1 p := ⟨i 0, eq_ix1 i⟩
  exact Cert.Keepdims.shapeCast_a_a1_apply v shapeCasts_S100000_S100000x1 p 0

/-- A vector laid as a row, read back along it, is the vector. -/
theorem row_read (b : (⟨S128, .f32⟩ : BufTy).Contents (Elt Ideal)) :
    (fun i : (⟨1, ![128]⟩ : Shape).Idx => shapeCast S1x128 b shapeCasts_S128_S1x128 (ix2 (0 : Fin 1) (i 0))) = b := by
  funext i
  obtain ⟨q, rfl⟩ : ∃ q : Fin 128, i = ix1 q := ⟨i 0, eq_ix1 i⟩
  exact Cert.LibSideBySide.row_apply b shapeCasts_S128_S1x128 q

variable (x1 : (⟨S2x1600000, .i32⟩ : BufTy).Contents (Elt Ideal)) (x2 : (⟨S2x500000, .i32⟩ : BufTy).Contents (Elt Ideal))
  (x0 : (⟨S100000x64, .f32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal)) (x12 : (⟨S1, .f32⟩ : BufTy).Contents (Elt Ideal))

/-- The hidden features are the clamped layer of the aggregate, the features and the inverse degrees. -/
theorem hid_eq : hid x1 x0 x3 x4 x5
    = Dense.convClamp (n := 100000) (k := 64) (h := 128) (agg64 x1 x0) x0 (invDeg x1) x3 x5 x4 := by
  unfold hid Layer1.G
  rw [col_read, row_read]

/-- The embeddings are the layer of the hidden features' aggregate, the hidden features and the inverse degrees. -/
theorem emb_eq : emb x1 x0 x3 x4 x5 x6 x7 x8
    = Dense.conv (n := 100000) (k := 128) (h := 128) (agg128 x1 (hid x1 x0 x3 x4 x5)) (hid x1 x0 x3 x4 x5) (invDeg x1) x6 x8 x7 := by
  unfold emb Layer2.G
  rw [col_read, row_read]

/-- The decoder region's function, at the halves, rows and transpose the host hands it, is the score. -/
theorem out_eq : out x1 x2 x0 x3 x4 x5 x6 x7 x8 x9 x10 x11 x12
    = Dense.score (e := 500000) (pick (emb x1 x0 x3 x4 x5 x6 x7 x8) (lblCol (lblIdx0 x2)))
        (pick (emb x1 x0 x3 x4 x5 x6 x7 x8) (lblCol (lblIdx1 x2))) x9 x10 x11 x12 := by
  have eT : ∀ q c : Fin 128, extractStridedSlice S128x128 ![0, 0] x9 slices_S256x128_S128x128_0_0 (ix2 q c)
      = x9 (ix2 (Fin.castAdd 128 q : Fin (128 + 128)) c) :=
    fun q c => slice2_axis0_apply 0 x9 slices_S256x128_S128x128_0_0 q c (Fin.castAdd 128 q : Fin (128 + 128))
      (by show q.val = 0 + q.val; omega)
  have eB : ∀ q c : Fin 128, extractStridedSlice S128x128 ![128, 0] x9 slices_S256x128_S128x128_128_0 (ix2 q c)
      = x9 (ix2 (Fin.natAdd 128 q : Fin (128 + 128)) c) :=
    fun q c => slice2_axis0_apply 128 x9 slices_S256x128_S128x128_128_0 q c (Fin.natAdd 128 q : Fin (128 + 128)) rfl
  have e1 : ∀ c : Fin 128, shapeCast S1x128 x10 shapeCasts_S128_S1x128 (ix2 (0 : Fin 1) c) = x10 (ix1 c) :=
    fun c => Cert.LibSideBySide.row_apply x10 shapeCasts_S128_S1x128 c
  have eW : ∀ c : Fin 128, transpose S1x128 [1, 0] x11 transposes_S128x1_S1x128_1_0 (ix2 (0 : Fin 1) c) = x11 (ix2 c (0 : Fin 1)) :=
    fun c => transpose_ix2_apply x11 transposes_S128x1_S1x128_1_0 (0 : Fin 1) c
  have e2 : shapeCast S1x1 x12 shapeCasts_S1_S1x1 (ix2 (0 : Fin 1) (0 : Fin 1)) = x12 (ix1 (0 : Fin 1)) :=
    Cert.LibSideBySide.row_apply x12 shapeCasts_S1_S1x1 (0 : Fin 1)
  funext j
  unfold out Decoder.G Decoder.GAt Dense.score Dense.scoreAt Dense.hiddenAt
  simp only [eT, eB, e1, eW, e2] <;>
    (with_reducible rfl)

/-- THE KERNEL'S SCORES COLUMN is the network function at the kernel's graph-dependent pieces. -/
theorem out_model : out x1 x2 x0 x3 x4 x5 x6 x7 x8 x9 x10 x11 x12
    = Dense.model (invDeg x1) (agg64 x1 x0) (agg128 x1) (fun z => pick z (lblCol (lblIdx0 x2)))
        (fun z => pick z (lblCol (lblIdx1 x2))) x0 x3 x5 x4 x6 x8 x7 x9 x10 x11 x12 := by
  rw [out_eq, emb_eq, hid_eq]
  unfold Dense.model
  with_reducible rfl

end Cert.KernelIdeal.Composite

end
-- ==== Proof.DenseAt.lean ====
/-
  The dense functions read at an index given by its coordinates.
-/
import proofs.«164962_j75256416960673_2_alg».proof.Proof.Dense

noncomputable section

namespace Cert.Dense

open Idealize.ShloMosaic Idealize.ShloMosaic.ValueIdx

variable {n k h : ℕ}

/-- The clamped layer at node `p`, coordinate `c`. -/
theorem convClamp_apply (agg x : (⟨2, ![n, k]⟩ : Shape).Idx → EReal) (inv : (⟨1, ![n]⟩ : Shape).Idx → EReal)
    (wl wr : (⟨2, ![k, h]⟩ : Shape).Idx → EReal) (b : (⟨1, ![h]⟩ : Shape).Idx → EReal) (p : Fin n) (c : Fin h) :
    convClamp agg x inv wl wr b (ix2 p c)
      = max ((∑ q : Fin k, agg (ix2 p q) * inv (ix1 p) * wl (ix2 q c)) + b (ix1 c) + ∑ q : Fin k, x (ix2 p q) * wr (ix2 q c))
          (Ideal.ofBits .f32 0x00000000#32) := rfl

/-- The layer at node `p`, coordinate `c`. -/
theorem conv_apply (agg x : (⟨2, ![n, k]⟩ : Shape).Idx → EReal) (inv : (⟨1, ![n]⟩ : Shape).Idx → EReal)
    (wl wr : (⟨2, ![k, h]⟩ : Shape).Idx → EReal) (b : (⟨1, ![h]⟩ : Shape).Idx → EReal) (p : Fin n) (c : Fin h) :
    conv agg x inv wl wr b (ix2 p c)
      = (∑ q : Fin k, agg (ix2 p q) * inv (ix1 p) * wl (ix2 q c)) + b (ix1 c) + ∑ q : Fin k, x (ix2 p q) * wr (ix2 q c) := rfl

variable {e : ℕ}

/-- The score of edge `p`. -/
theorem score_apply (z0 z1 : (⟨2, ![e, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (p : Fin e) :
    score z0 z1 w1 b1 w2 b2 (ix2 p (0 : Fin 1))
      = (∑ c : Fin 128, max ((∑ q : Fin 128, z0 (ix2 p q) * w1 (ix2 (Fin.castAdd 128 q : Fin (128 + 128)) c))
            + (∑ q : Fin 128, z1 (ix2 p q) * w1 (ix2 (Fin.natAdd 128 q : Fin (128 + 128)) c)) + b1 (ix1 c))
          (Ideal.ofBits .f32 0x00000000#32) * w2 (ix2 c (0 : Fin 1))) + b2 (ix1 (0 : Fin 1)) := rfl

end Cert.Dense

end
-- ==== Proof.RefDense.lean ====
/-
  The reference's dense stages are the layer and decoder functions.

  The reference computes each layer as a product with the scaled aggregate, a bias broadcast over the rows and a second
  product, and the decoder as one product of the concatenated endpoint embeddings with the 256-row weight, a bias, a
  clamp at zero and a product with the 128 × 1 weight. Read index by index these are the sums of `Dense`: a broadcast
  reads its operand at the coordinates it keeps, a product is the sum over its contracted coordinate, and the sum over
  the 256 concatenated columns is the sum over the first endpoint's 128 plus the sum over the second's.
-/
import proofs.«164962_j75256416960673_2_alg».proof.Proof.RefRead
import proofs.«164962_j75256416960673_2_alg».proof.Proof.DenseAt
import proofs.«164962_j75256416960673_2_alg».proof.Proof.LibSideBySide

set_option maxRecDepth 16384

noncomputable section

namespace Cert.ReferenceIdeal.Layers

open Cert.ReferenceIdeal Cert.ReferenceIdeal.Gen Cert.ReferenceIdeal.ReadP Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S2x500000, .i32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-- The first layer's stage, after its clamp, is the clamped layer of the aggregate, the features and the inverse
    degrees. -/
theorem layer1 : val_main_v34 (F := Ideal) x0 x1 x3 x4 x5
    = Dense.convClamp (n := 100000) (k := 64) (h := 128) (val_main_v24 (F := Ideal) x0 x1) x0 (val_main_v14 (F := Ideal) x1) x3 x5 x4 := by
  funext i
  obtain ⟨p, c, rfl⟩ : ∃ (p : Fin 100000) (c : Fin 128), i = ix2 p c := ⟨i 0, i 1, eq_ix2 i⟩
  have hl : ∀ k : Fin 64, lidx_main_v28 (ix2 p c) k = ix2 p k := fun k => funext fun a => by match a with | ⟨0, _⟩ => rfl | ⟨1, _⟩ => rfl
  have hr : ∀ k : Fin 64, ridx_main_v28 (ix2 p c) k = ix2 k c := fun k => funext fun a => by match a with | ⟨0, _⟩ => rfl | ⟨1, _⟩ => rfl
  have hl' : ∀ k : Fin 64, lidx_main_v32 (ix2 p c) k = ix2 p k := fun k => funext fun a => by match a with | ⟨0, _⟩ => rfl | ⟨1, _⟩ => rfl
  have hr' : ∀ k : Fin 64, ridx_main_v32 (ix2 p c) k = ix2 k c := fun k => funext fun a => by match a with | ⟨0, _⟩ => rfl | ⟨1, _⟩ => rfl
  have hcol : ∀ k : Fin 64, idx_main_v26 (ix2 p k) = ix2 p (0 : Fin 1) := fun k => funext fun a => by match a with | ⟨0, _⟩ => rfl | ⟨1, _⟩ => rfl
  have hvec : idx_main_v25 (ix2 p (0 : Fin 1)) = ix1 p := funext fun a => by match a with | ⟨0, _⟩ => rfl
  have hrow : idx_main_v30 (ix2 p c) = ix2 (0 : Fin 1) c := funext fun a => by match a with | ⟨0, _⟩ => rfl | ⟨1, _⟩ => rfl
  have hb : idx_main_v29 (ix2 (0 : Fin 1) c) = ix1 c := funext fun a => by match a with | ⟨0, _⟩ => rfl
  rw [val_main_v34_apply, val_main_v33_apply, val_main_v31_apply, val_main_v28_apply, val_main_v32_apply,
    val_main_v30_apply, val_main_v29_apply, val_main_call1_v0_apply, val_main_call1_cst_apply]
  rw [Dense.convClamp_apply, Ideal.maximumf_def, Ideal.ofBits_def, Ideal.addf_def, Ideal.addf_def]
  refine congrArg (fun s => max s (Ideal.ofBits .f32 0x00000000#32)) (congrArg₂ (· + ·) (congrArg₂ (· + ·) (Finset.sum_congr rfl fun k _ => ?_) ?_)
    (Finset.sum_congr rfl fun k _ => ?_))
  · rw [hl k, hr k, val_main_v27_apply, val_main_v26_apply, hcol k, val_main_v25_apply, hvec, Ideal.mulf_def]
  · rw [hrow, hb]
  · rw [hl' k, hr' k]

/-- The second layer's stage is the layer of the aggregate of the hidden features, the hidden features and the inverse
    degrees. -/
theorem layer2 : val_main_v53 (F := Ideal) x0 x1 x3 x4 x5 x6 x7 x8
    = Dense.conv (n := 100000) (k := 128) (h := 128) (val_main_v44 (F := Ideal) x0 x1 x3 x4 x5) (val_main_v34 (F := Ideal) x0 x1 x3 x4 x5) (val_main_v14 (F := Ideal) x1) x6 x8 x7 := by
  funext i
  obtain ⟨p, c, rfl⟩ : ∃ (p : Fin 100000) (c : Fin 128), i = ix2 p c := ⟨i 0, i 1, eq_ix2 i⟩
  have hl : ∀ k : Fin 128, lidx_main_v48 (ix2 p c) k = ix2 p k := fun k => funext fun a => by match a with | ⟨0, _⟩ => rfl | ⟨1, _⟩ => rfl
  have hr : ∀ k : Fin 128, ridx_main_v48 (ix2 p c) k = ix2 k c := fun k => funext fun a => by match a with | ⟨0, _⟩ => rfl | ⟨1, _⟩ => rfl
  have hl' : ∀ k : Fin 128, lidx_main_v52 (ix2 p c) k = ix2 p k := fun k => funext fun a => by match a with | ⟨0, _⟩ => rfl | ⟨1, _⟩ => rfl
  have hr' : ∀ k : Fin 128, ridx_main_v52 (ix2 p c) k = ix2 k c := fun k => funext fun a => by match a with | ⟨0, _⟩ => rfl | ⟨1, _⟩ => rfl
  have hcol : ∀ k : Fin 128, idx_main_v46 (ix2 p k) = ix2 p (0 : Fin 1) := fun k => funext fun a => by match a with | ⟨0, _⟩ => rfl | ⟨1, _⟩ => rfl
  have hvec : idx_main_v45 (ix2 p (0 : Fin 1)) = ix1 p := funext fun a => by match a with | ⟨0, _⟩ => rfl
  have hrow : idx_main_v50 (ix2 p c) = ix2 (0 : Fin 1) c := funext fun a => by match a with | ⟨0, _⟩ => rfl | ⟨1, _⟩ => rfl
  have hb : idx_main_v49 (ix2 (0 : Fin 1) c) = ix1 c := funext fun a => by match a with | ⟨0, _⟩ => rfl
  rw [val_main_v53_apply, val_main_v51_apply, val_main_v48_apply, val_main_v52_apply, val_main_v50_apply,
    val_main_v49_apply]
  rw [Dense.conv_apply, Ideal.addf_def, Ideal.addf_def]
  refine (congrArg₂ (· + ·) (congrArg₂ (· + ·) (Finset.sum_congr rfl fun k _ => ?_) ?_)
    (Finset.sum_congr rfl fun k _ => ?_))
  · rw [hl k, hr k, val_main_v47_apply, val_main_v46_apply, hcol k, val_main_v45_apply, hvec, Ideal.mulf_def]
  · rw [hrow, hb]
  · rw [hl' k, hr' k]

/-- The product of the concatenated endpoint embeddings with the 256-row weight, at edge `p`, hidden unit `k`: the
    first endpoint meets rows 0…127 and the second rows 128…255. -/
theorem split (p : Fin 500000) (k : Fin 128) : val_main_v73 (F := Ideal) x0 x1 x2 x3 x4 x5 x6 x7 x8 x9 (ix2 p k)
    = (∑ q : Fin 128, (val_main_v62 (F := Ideal) x0 x1 x2 x3 x4 x5 x6 x7 x8) (ix2 p q) * x9 (ix2 (Fin.castAdd 128 q : Fin (128 + 128)) k))
      + ∑ q : Fin 128, (val_main_v71 (F := Ideal) x0 x1 x2 x3 x4 x5 x6 x7 x8) (ix2 p q) * x9 (ix2 (Fin.natAdd 128 q : Fin (128 + 128)) k) := by
  rw [val_main_v73_apply]
  refine (Fin.sum_univ_add (a := 128) (b := 128) _).trans ?_
  refine congrArg₂ (· + ·) (Finset.sum_congr rfl fun q _ => ?_) (Finset.sum_congr rfl fun q _ => ?_)
  · have e1 : lidx_main_v73 (ix2 p k) (Fin.castAdd 128 q) = ix2 p (Fin.castAdd 128 q : Fin (128 + 128)) := funext fun a => by match a with | ⟨0, _⟩ => rfl | ⟨1, _⟩ => rfl
    have e2 : ridx_main_v73 (ix2 p k) (Fin.castAdd 128 q) = ix2 (Fin.castAdd 128 q : Fin (128 + 128)) k := funext fun a => by match a with | ⟨0, _⟩ => rfl | ⟨1, _⟩ => rfl
    exact congrArg₂ (· * ·)
      ((congrArg (val_main_v72 (F := Ideal) x0 x1 x2 x3 x4 x5 x6 x7 x8) e1).trans
        (LibSideBySide.cols_left _ _ concatenates_S500000x128_S500000x128_S500000x256_d1 p q _ rfl))
      (congrArg x9 e2)
  · have e1 : lidx_main_v73 (ix2 p k) (Fin.natAdd 128 q) = ix2 p (Fin.natAdd 128 q : Fin (128 + 128)) := funext fun a => by match a with | ⟨0, _⟩ => rfl | ⟨1, _⟩ => rfl
    have e2 : ridx_main_v73 (ix2 p k) (Fin.natAdd 128 q) = ix2 (Fin.natAdd 128 q : Fin (128 + 128)) k := funext fun a => by match a with | ⟨0, _⟩ => rfl | ⟨1, _⟩ => rfl
    exact congrArg₂ (· * ·)
      ((congrArg (val_main_v72 (F := Ideal) x0 x1 x2 x3 x4 x5 x6 x7 x8) e1).trans
        (LibSideBySide.cols_right _ _ concatenates_S500000x128_S500000x128_S500000x256_d1 p q _ rfl))
      (congrArg x9 e2)

/-- The decoder's last stage before the final reshape is the score of the two gathered endpoint embeddings. -/
theorem decoder : val_main_v81 (F := Ideal) x0 x1 x2 x3 x4 x5 x6 x7 x8 x9 x10 x11 x12
    = Dense.score (e := 500000) (val_main_v62 (F := Ideal) x0 x1 x2 x3 x4 x5 x6 x7 x8) (val_main_v71 (F := Ideal) x0 x1 x2 x3 x4 x5 x6 x7 x8) x9 x10 x11 x12 := by
  funext i
  obtain ⟨p, u, rfl⟩ : ∃ (p : Fin 500000) (u : Fin 1), i = ix2 p u := ⟨i 0, i 1, eq_ix2 i⟩
  have hu : u = 0 := Subsingleton.elim _ _
  subst hu
  have hl : ∀ k : Fin 128, lidx_main_v78 (ix2 p (0 : Fin 1)) k = ix2 p k := fun k => funext fun a => by match a with | ⟨0, _⟩ => rfl | ⟨1, _⟩ => rfl
  have hr : ∀ k : Fin 128, ridx_main_v78 (ix2 p (0 : Fin 1)) k = ix2 k (0 : Fin 1) := fun k => funext fun a => by match a with | ⟨0, _⟩ => rfl | ⟨1, _⟩ => rfl
  have h80 : idx_main_v80 (ix2 p (0 : Fin 1)) = ix2 (0 : Fin 1) (0 : Fin 1) := funext fun a => by match a with | ⟨0, _⟩ => rfl | ⟨1, _⟩ => rfl
  have h79 : idx_main_v79 (ix2 (0 : Fin 1) (0 : Fin 1)) = ix1 (0 : Fin 1) := funext fun a => by match a with | ⟨0, _⟩ => rfl
  have h75 : ∀ k : Fin 128, idx_main_v75 (ix2 p k) = ix2 (0 : Fin 1) k := fun k => funext fun a => by match a with | ⟨0, _⟩ => rfl | ⟨1, _⟩ => rfl
  have h74 : ∀ k : Fin 128, idx_main_v74 (ix2 (0 : Fin 1) k) = ix1 k := fun k => funext fun a => by match a with | ⟨0, _⟩ => rfl
  rw [Dense.score_apply, val_main_v81_apply, val_main_v78_apply, val_main_v80_apply, val_main_v79_apply, Ideal.addf_def]
  refine congrArg₂ (· + ·) (Finset.sum_congr rfl fun k _ => ?_) ?_
  · rw [hl k, hr k, val_main_v77_apply, val_main_v76_apply, split, val_main_v75_apply, h75 k, val_main_v74_apply, h74 k,
      val_main_call2_v0_apply, val_main_call2_cst_apply, Ideal.maximumf_def, Ideal.addf_def, Ideal.ofBits_def]
  · rw [h80, h79]

end Cert.ReferenceIdeal.Layers

end
-- ==== Proof.RefModel.lean ====
/-
  The reference's result is the network function at the reference's own graph-dependent pieces.

  The reference's last stage before its final reshape is the score of the two gathered endpoint embeddings; those are
  gathers of the second layer's stage, which is the layer of the aggregate of the first layer's stage; and the
  aggregate is a scatter of a gather. Naming the gathers and the scatter as maps of the array they act on, the stage is
  the network function at those maps, the first aggregate and the inverse degrees.
-/
import proofs.«164962_j75256416960673_2_alg».proof.Proof.RefDense
import proofs.«164962_j75256416960673_2_alg».proof.Proof.Model

set_option maxRecDepth 16384

noncomputable section

namespace Cert.ReferenceIdeal.Layers

open Cert.ReferenceIdeal Cert.ReferenceIdeal.ReadP Idealize.ShloMosaic Idealize.ShloMosaic.ValueIdx

section Pieces

variable {F : FTy → Type} [FloatOps F]

/-- The map taking hidden features to the sums of the in-neighbours' rows. -/
def aggOf (x1 : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1 (val_main_v42 (F := F)) (val_main_v43 (F := F) x1)
    (Host.gather gather_S100000x128_S1600000x1_S1600000x128_1_0_n_n_0_1_1128 h (val_main_v40 (F := F) x1))

/-- The map picking the label edges' first endpoints' rows. -/
def pick0 (x2 : (⟨S2x500000, .i32⟩ : BufTy).Contents (Elt F)) (z : (⟨S100000x128, .f32⟩ : BufTy).Contents (Elt F)) : (⟨S500000x128, .f32⟩ : BufTy).Contents (Elt F) :=
  Host.gather gather_S100000x128_S500000x1_S500000x128_1_0_n_n_0_1_1128 z (val_main_v61 (F := F) x2)

/-- The map picking the label edges' second endpoints' rows. -/
def pick1 (x2 : (⟨S2x500000, .i32⟩ : BufTy).Contents (Elt F)) (z : (⟨S100000x128, .f32⟩ : BufTy).Contents (Elt F)) : (⟨S500000x128, .f32⟩ : BufTy).Contents (Elt F) :=
  Host.gather gather_S100000x128_S500000x1_S500000x128_1_0_n_n_0_1_1128 z (val_main_v70 (F := F) x2)

end Pieces

variable (x0 : (⟨S100000x64, .f32⟩ : BufTy).Contents (Elt Ideal)) (x1 : (⟨S2x1600000, .i32⟩ : BufTy).Contents (Elt Ideal))
  (x2 : (⟨S2x500000, .i32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-- THE REFERENCE'S SCORES COLUMN is the network function at the reference's graph-dependent pieces. -/
theorem stage_model : val_main_v81 (F := Ideal) x0 x1 x2 x3 x4 x5 x6 x7 x8 x9 x10 x11 x12
    = Dense.model (val_main_v14 (F := Ideal) x1) (val_main_v24 (F := Ideal) x0 x1) (aggOf x1) (pick0 x2) (pick1 x2) x0 x3 x5 x4 x6 x8 x7 x9 x10 x11 x12 := by
  have e62 : val_main_v62 (F := Ideal) x0 x1 x2 x3 x4 x5 x6 x7 x8 = pick0 x2 (val_main_v53 (F := Ideal) x0 x1 x3 x4 x5 x6 x7 x8) := rfl
  have e71 : val_main_v71 (F := Ideal) x0 x1 x2 x3 x4 x5 x6 x7 x8 = pick1 x2 (val_main_v53 (F := Ideal) x0 x1 x3 x4 x5 x6 x7 x8) := rfl
  have e44 : val_main_v44 (F := Ideal) x0 x1 x3 x4 x5 = aggOf x1 (val_main_v34 (F := Ideal) x0 x1 x3 x4 x5) := rfl
  rw [decoder, e62, e71, layer2, e44, layer1]
  unfold Dense.model
  with_reducible rfl

end Cert.ReferenceIdeal.Layers

end
-- ==== Proof.Cross.lean ====
/-
  The two programs compute the graph-dependent pieces by the same host operations.

  The inverse degrees, the first aggregate, the aggregate map and the two picking maps are, in both programs, the same
  slices, index wrap-arounds, gathers and scatter-adds of the edge lists and of the array they act on. Each equation
  below puts the two spellings side by side over array variables and at any float instance, where the operations are
  only compared, never computed.
-/
import proofs.«164962_j75256416960673_2_alg».proof.Proof.KHost
import proofs.«164962_j75256416960673_2_alg».proof.Proof.RefModel

set_option maxRecDepth 16384

noncomputable section

namespace Cert.Cross

open Idealize.ShloMosaic

variable {F : FTy → Type} [FloatOps F]
variable (x1 : (⟨Cert.KernelIdeal.S2x1600000, .i32⟩ : BufTy).Contents (Elt F)) (x2 : (⟨Cert.KernelIdeal.S2x500000, .i32⟩ : BufTy).Contents (Elt F))
  (x0 : (⟨Cert.KernelIdeal.S100000x64, .f32⟩ : BufTy).Contents (Elt F))

/-- The inverse in-degrees. -/
theorem inv_eq : Cert.KernelIdeal.Composite.invDeg x1 = Cert.ReferenceIdeal.ReadP.val_main_v14 (F := F) x1 := rfl

/-- The first aggregate. -/
theorem agg1_eq : Cert.KernelIdeal.Composite.agg64 x1 x0 = Cert.ReferenceIdeal.ReadP.val_main_v24 (F := F) x0 x1 := rfl

/-- The aggregate map. -/
theorem aggOf_eq : Cert.KernelIdeal.Composite.agg128 x1 = Cert.ReferenceIdeal.Layers.aggOf (F := F) x1 := rfl

/-- The first endpoints' picking map. -/
theorem pick0_eq : (fun z => Cert.KernelIdeal.Composite.pick z (Cert.KernelIdeal.Composite.lblCol (Cert.KernelIdeal.Composite.lblIdx0 x2))) = Cert.ReferenceIdeal.Layers.pick0 (F := F) x2 := rfl

/-- The second endpoints' picking map. -/
theorem pick1_eq : (fun z => Cert.KernelIdeal.Composite.pick z (Cert.KernelIdeal.Composite.lblCol (Cert.KernelIdeal.Composite.lblIdx1 x2))) = Cert.ReferenceIdeal.Layers.pick1 (F := F) x2 := rfl

end Cert.Cross

end
-- ==== Proof.lean ====
/-
  Two programs for one graph network are equal on the extended reals.

  The kernel program runs two neighbourhood-averaging layers and an edge decoder as three pipelined regions among host
  gathers and scatter-adds; the reference runs the same network as host operations only. The kernel splits the decoder's
  256-row product in two 128-row products instead of concatenating the endpoints, and takes its last linear map as a
  row-wise multiply and lane sum instead of a 128 × 1 product; everything graph-dependent is computed by the same host
  operations in both. On the extended reals a finite sum may be split and regrouped freely, so both results are the one
  network function of the arguments; no finiteness of the inputs is used.

  The frames are the generated ones (the reference's is its run with the result dropped); the idealization rewrote
  nothing, so it is preserved trivially.
-/
import proofs.«164962_j75256416960673_2_alg».proof.Defs
import proofs.«164962_j75256416960673_2_alg».proof.Proof.Gen.Kernel
import proofs.«164962_j75256416960673_2_alg».proof.Proof.Gen.Kernel.Frame
import proofs.«164962_j75256416960673_2_alg».proof.Proof.Gen.KernelIdeal
import proofs.«164962_j75256416960673_2_alg».proof.Proof.Gen.KernelIdeal.Frame
import proofs.«164962_j75256416960673_2_alg».proof.Proof.Gen.ReferenceIdeal
import proofs.«164962_j75256416960673_2_alg».proof.Proof.Gen.Pre_finite_inputs
import proofs.«164962_j75256416960673_2_alg».proof.Proof.RefRun
import proofs.«164962_j75256416960673_2_alg».proof.Proof.Whole
import proofs.«164962_j75256416960673_2_alg».proof.Proof.KModel
import proofs.«164962_j75256416960673_2_alg».proof.Proof.RefModel
import proofs.«164962_j75256416960673_2_alg».proof.Proof.Cross
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network function of the arguments in their
    result buffers: the kernel's by the walk through its regions, the reference's by its stages, the graph-dependent
    pieces being the same host operations in both. -/
theorem algebraic : Cert.algebraic_KernelIdeal_ReferenceIdeal := by
  intro m ρ m' ρ' _ hagree
  refine ⟨fun c => Cert.KernelIdeal.Gen.W9 m ρ c (Proc.devRef .tc Cert.KernelIdeal.main_v64),
    Cert.KernelIdeal.Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v82_eq, h0, h1, h2, h3, h4, h5, h6, h7, h8, h9, h10, h11, h12]
  show _ = Cert.KernelIdeal.Gen.W9 m ρ c (Proc.devRef .tc Cert.KernelIdeal.main_v64)
  rw [Cert.KernelIdeal.Composite.result, Cert.KernelIdeal.Composite.out_model, Cert.Cross.inv_eq, Cert.Cross.agg1_eq,
    Cert.Cross.aggOf_eq, Cert.Cross.pick0_eq (F := Ideal) (m ((c.tc : Thread Cert.KernelIdeal.nD Cert.KernelIdeal.τ).loc Cert.KernelIdeal.main_arg2)),
    Cert.Cross.pick1_eq (F := Ideal) (m ((c.tc : Thread Cert.KernelIdeal.nD Cert.KernelIdeal.τ).loc Cert.KernelIdeal.main_arg2))]
  unfold Cert.ReferenceIdeal.ReadP.val_main_v82
  rw [Cert.ReferenceIdeal.Layers.stage_model]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
